-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S32x1024 : Shape := ⟨2, ![32, 1024]⟩
abbrev S33x1 : Shape := ⟨2, ![33, 1]⟩
abbrev S32x256 : Shape := ⟨2, ![32, 256]⟩
abbrev S1024 : Shape := ⟨1, ![1024]⟩
abbrev S1024x1024 : Shape := ⟨2, ![1024, 1024]⟩
abbrev S32 : Shape := ⟨1, ![32]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S33x1 : S_.BroadcastsInDim S33x1 (![] : Fin 0 → Fin S33x1.rank)
  reducesTo_S33x1_S_d0_1 : S33x1.ReducesTo [0, 1] S_
  bcast_S_S32x256 : S_.BroadcastsInDim S32x256 (![] : Fin 0 → Fin S32x256.rank)
  reducesTo_S32x256_S_d0_1 : S32x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S32x256 .f32) (main_arg5 : FVec F S1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S33x1 1) : IVec S_ 1 :=
  let main_c_5 : IVec S_ 1 := constantI S_ 1 1#1
  let main_v17 : IVec S_ 1 := (fun x v => Host.reduce IntOp.andi x v reducesTo_S33x1_S_d0_1 h_S_) main_v16 main_c_5
  let main_v18 : IVec S_ 1 := andi main_v13 main_v17
  let main_v19 : FVec F S32x256 .f32 := Host.absf main_arg4
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x2048x1024 .f32) (main_arg1 : FVec F S32x1024 .f32) (main_arg2 : FVec F S32x1024 .f32) (main_arg3 : FVec F S33x1 .f32) (main_arg4 : FVec F S32x256 .f32) (main_arg5 : FVec F S1024 .f32) (main_arg6 : FVec F S1024 .f32) (main_arg7 : FVec F S1024x1024 .f32) (main_arg8 : FVec F S1024 .f32) (main_arg9 : FVec F S1024x1024 .f32) (main_arg10 : FVec F S1024 .f32) (main_arg11 : IVec S32 32) (main_arg12 : IVec S_ 32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S33x1 .f32 := Host.absf main_arg3
  let main_cst_4 : FVec F S_ .f32 := constant S_ .f32 0x7F800000#32
  let main_v15 : FVec F S33x1 .f32 := broadcastInDim S33x1 ![] bcast_S_S33x1 main_cst_4
  let main_v16 : IVec S33x1 1 := cmpf .olt main_v14 main_v15
  fn_part1 (F := F) main_arg4 main_arg5 main_arg6 main_arg7 main_arg8 main_arg9 main_arg10 main_v13 main_v16
-- ==== Kernel.lean ====
abbrev S16x2048x1024 : Shape := ⟨3, ![16, 2048, 1024]⟩
abbrev S32x1024 : Shape := ⟨2, ![32, 1024]⟩
abbrev S33x1 : Shape := ⟨2, ![33, 1]⟩
abbrev S32x256 : Shape := ⟨2, ![32, 256]⟩
abbrev S1024 : Shape := ⟨1, ![1024]⟩
abbrev S1024x1024 : Shape := ⟨2, ![1024, 1024]⟩
abbrev S32 : Shape := ⟨1, ![32]⟩
abbrev S_ : Shape := ⟨0, ![]⟩
abbrev S16x1024 : Shape := ⟨2, ![16, 1024]⟩
abbrev S8x128x1024 : Shape := ⟨3, ![8, 128, 1024]⟩
abbrev S8x1024 : Shape := ⟨2, ![8, 1024]⟩
abbrev S8x128 : Shape := ⟨2, ![8, 128]⟩
abbrev S8x128x1 : Shape := ⟨3, ![8, 128, 1]⟩
abbrev S1x1x1024 : Shape := ⟨3, ![1, 1, 1024]⟩
abbrev S1x1024 : Shape := ⟨2, ![1, 1024]⟩
abbrev S1024x32 : Shape := ⟨2, ![1024, 32]⟩
abbrev S16x32 : Shape := ⟨2, ![16, 32]⟩
abbrev S32x1 : Shape := ⟨2, ![32, 1]⟩
abbrev S32x2 : Shape := ⟨2, ![32, 2]⟩
abbrev S1x32 : Shape := ⟨2, ![1, 32]⟩
abbrev S256x32 : Shape := ⟨2, ![256, 32]⟩
abbrev S32x32 : Shape := ⟨2, ![32, 32]⟩
abbrev S16 : Shape := ⟨1, ![16]⟩
abbrev S16x1 : Shape := ⟨2, ![16, 1]⟩

abbrev nBuf : Space → Nat
  | .hbm => 110
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S32x1024, .f32⟩
  | .hbm, ⟨2, _⟩ => ⟨S32x1024, .f32⟩
  | .hbm, ⟨3, _⟩ => ⟨S33x1, .f32⟩
  | .hbm, ⟨4, _⟩ => ⟨S32x256, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S32, .i32⟩
  | .hbm, ⟨12, _⟩ => ⟨S_, .i32⟩
  | .hbm, ⟨13, _⟩ => ⟨S16x1024, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S16x1024, .f32⟩
  | .hbm, ⟨31, _⟩ => ⟨S16x1024, .f32⟩
  | .hbm, ⟨32, _⟩ => ⟨S32x1024, .f32⟩
  | .hbm, ⟨33, _⟩ => ⟨S1024x1024, .f32⟩
  | .hbm, ⟨34, _⟩ => ⟨S16x1024, .f32⟩
  | .hbm, ⟨35, _⟩ => ⟨S1x1024, .f32⟩
  | .hbm, ⟨36, _⟩ => ⟨S16x1024, .f32⟩
  | .hbm, ⟨37, _⟩ => ⟨S16x1024, .f32⟩
  | .hbm, ⟨38, _⟩ => ⟨S1024x1024, .f32⟩
  | .hbm, ⟨39, _⟩ => ⟨S32x1024, .f32⟩
  | .hbm, ⟨40, _⟩ => ⟨S1x1024, .f32⟩
  | .hbm, ⟨41, _⟩ => ⟨S32x1024, .f32⟩
  | .hbm, ⟨42, _⟩ => ⟨S32x1024, .f32⟩
  | .hbm, ⟨43, _⟩ => ⟨S1024x32, .f32⟩
  | .hbm, ⟨44, _⟩ => ⟨S16x32, .f32⟩
  | .hbm, ⟨45, _⟩ => ⟨S_, .f32⟩
  | .hbm, ⟨46, _⟩ => ⟨S_, .f32⟩
  | .hbm, ⟨47, _⟩ => ⟨S16x32, .f32⟩
  | .hbm, ⟨48, _⟩ => ⟨S16x32, .f32⟩
  | .hbm, ⟨49, _⟩ => ⟨S32, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32x1, .i32⟩
  | .hbm, ⟨64, _⟩ => ⟨S32x1, .i32⟩
  | .hbm, ⟨65, _⟩ => ⟨S32x2, .i32⟩
  | .hbm, ⟨66, _⟩ => ⟨S32, .f32⟩
  | .hbm, ⟨67, _⟩ => ⟨S1x32, .f32⟩
  | .hbm, ⟨68, _⟩ => ⟨S16x32, .f32⟩
  | .hbm, ⟨69, _⟩ => ⟨S16x32, .f32⟩
  | .hbm, ⟨70, _⟩ => ⟨S256x32, .f32⟩
  | .hbm, ⟨71, _⟩ => ⟨S32x32, .f32⟩
  | .hbm, ⟨72, _⟩ => ⟨S_, .i32⟩
  | .hbm, ⟨73, _⟩ => ⟨S32, .i32⟩
  | .hbm, ⟨74, _⟩ => ⟨S32, .i1⟩
  | .hbm, ⟨75, _⟩ => ⟨S32, .i32⟩
  | .hbm, ⟨76, _⟩ => ⟨S32, .i1⟩
  | .hbm, ⟨77, _⟩ => ⟨S32, .i1⟩
  | .hbm, ⟨78, _⟩ => ⟨S_, .i32⟩
  | .hbm, ⟨79, _⟩ => ⟨S32, .i32⟩
  | .hbm, ⟨80, _⟩ => ⟨S32, .i32⟩
  | .hbm, ⟨81, _⟩ => ⟨S32, .f32⟩
  | .hbm, ⟨82, _⟩ => ⟨S32x1, .i1⟩
  | .hbm, ⟨83, _⟩ => ⟨S32x1, .f32⟩
  | .hbm, ⟨84, _⟩ => ⟨S32x32, .f32⟩
  | .hbm, ⟨85, _⟩ => ⟨S32x32, .f32⟩
  | .hbm, ⟨86, _⟩ => ⟨S_, .f32⟩
  | .hbm, ⟨87, _⟩ => ⟨S_, .f32⟩
  | .hbm, ⟨88, _⟩ => ⟨S32x32, .i1⟩
  | .hbm, ⟨89, _⟩ => ⟨S32x32, .f32⟩
  | .hbm, ⟨90, _⟩ => ⟨S32x32, .f32⟩
  | .hbm, ⟨91, _⟩ => ⟨S_, .f32⟩
  | .hbm, ⟨92, _⟩ => ⟨S32, .f32⟩
  | .hbm, ⟨93, _⟩ => ⟨S1x32, .f32⟩
  | .hbm, ⟨94, _⟩ => ⟨S16x32, .f32⟩
  | .hbm, ⟨95, _⟩ => ⟨S16x32, .f32⟩
  | .hbm, ⟨96, _⟩ => ⟨S_, .f32⟩
  | .hbm, ⟨97, _⟩ => ⟨S16, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S16x1, .f32⟩
  | .hbm, ⟨102, _⟩ => ⟨S16x32, .f32⟩
  | .hbm, ⟨103, _⟩ => ⟨S16x32, .f32⟩
  | .hbm, ⟨104, _⟩ => ⟨S16x32, .f32⟩
  | .hbm, ⟨105, _⟩ => ⟨S_, .f32⟩
  | .hbm, ⟨106, _⟩ => ⟨S16, .f32⟩
  | .hbm, ⟨107, _⟩ => ⟨S16x1, .f32⟩
  | .hbm, ⟨108, _⟩ => ⟨S16x32, .f32⟩
  | .hbm, ⟨109, _⟩ => ⟨S16x32, .f32⟩
  | .local _ .vmem, ⟨0, _⟩ => ⟨S8x128x1024, .f32⟩
  | .local _ .vmem, ⟨1, _⟩ => ⟨S8x128x1024, .f32⟩
  | .local _ .vmem, ⟨2, _⟩ => ⟨S1024, .f32⟩
  | .local _ .vmem, ⟨3, _⟩ => ⟨S1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_c_2 : Ref sig .tc := ⟨.hbm, 20, rfl⟩
abbrev main_v4 : Ref sig .tc := ⟨.hbm, 21, rfl⟩
abbrev main_c_3 : Ref sig .tc := ⟨.hbm, 22, rfl⟩
abbrev main_c_4 : Ref sig .tc := ⟨.hbm, 23, rfl⟩
abbrev main_v5 : Ref sig .tc := ⟨.hbm, 24, rfl⟩
abbrev main_c_5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_14 : BitVec 32 := 0#32
  let v36 : BitVec 1 := Scalar.cmpi .ne v35 c0_i32_14
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  shapeCasts_S8x128_S8x128x1 : S8x128.ShapeCasts S8x128x1
  broadcasts_S8x128x1_S8x128x1024 : S8x128x1.Broadcasts S8x128x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S8x128x1024 : S1x1x1024.Broadcasts S8x128x1024
  reduces_S8x128x1024_S8x1024 : S8x128x1024.Reduces [1] S8x1024
  sliceFits_S32x1024_S1x1024 : S32x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  transposes_S1024x1024_S1024x1024_1_0 : S1024x1024.Transposes [1, 0] S1024x1024
  bcast_S1x1024_S32x1024_0_1 : S1x1024.BroadcastsInDim S32x1024 (![0, 1] : Fin 2 → Fin S32x1024.rank)
  transposes_S32x1024_S1024x32_1_0 : S32x1024.Transposes [1, 0] S1024x32
  bcast_S_S16x32 : S_.BroadcastsInDim S16x32 (![] : Fin 0 → Fin S16x32.rank)
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  transposes_S32x256_S256x32_1_0 : S32x256.Transposes [1, 0] S256x32
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d0 : S32x32.ReducesTo [0] S32
  reducesTo_S16x32_S16_d1 : S16x32.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x32_0_1 : S16x1.BroadcastsInDim S16x32 (![0, 1] : Fin 2 → Fin S16x32.rank)
  dot_S16x1024_S1024x1024_S16x1024_1_0_0_1_n_n_wf : DotDims.WF S16x1024 S1024x1024 S16x1024 [1] [0] [0] [1] [] []
  dot_S32x1024_S1024x1024_S32x1024_1_0_0_1_n_n_wf : DotDims.WF S32x1024 S1024x1024 S32x1024 [1] [0] [0] [1] [] []
  dot_S16x1024_S1024x32_S16x32_1_0_0_1_n_n_wf : DotDims.WF S16x1024 S1024x32 S16x32 [1] [0] [0] [1] [] []
  gather_S33x1_S32x2_S32_n_01_n_n_01_1_11_wf : GatherDims.WF S33x1 S32x2 S32 [] [0, 1] [] [0, 1] [] 1 ![1, 1]
  dot_S32x256_S256x32_S32x32_1_0_0_1_n_n_wf : DotDims.WF S32x256 S256x32 S32x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S16x2048x1024.size a
  hwx0_0 : ∀ i : grid0.Coords, EltTy.bits .f32 = 32 ∨ (Rect.block (s := S16x2048x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S16x1024_S1024x32_S16x32_1_0_0_1_n_n : DotDims S16x1024 S1024x32 S16x32 where
  lhsContracting := [1]
  rhsContracting := [0]
  lhsNonContracting := [0]
  rhsNonContracting := [1]
  lhsBatch := []
  rhsBatch := []
  wf := dot_S16x1024_S1024x32_S16x32_1_0_0_1_n_n_wf
def gather_S33x1_S32x2_S32_n_01_n_n_01_1_11 : GatherDims S33x1 S32x2 S32 where
  offsetDims := []
  collapsedSliceDims := [0, 1]
  operandBatchingDims := []
  startIndicesBatchingDims := []
  startIndexMap := [0, 1]
  indexVectorDim := 1
  sliceSizes := ![1, 1]
  wf := gather_S33x1_S32x2_S32_n_01_n_n_01_1_11_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x1024 : Shape := ⟨3, ![16, 2048, 1024]⟩
abbrev S32x1024 : Shape := ⟨2, ![32, 1024]⟩
abbrev S33x1 : Shape := ⟨2, ![33, 1]⟩
abbrev S32x256 : Shape := ⟨2, ![32, 256]⟩
abbrev S1024 : Shape := ⟨1, ![1024]⟩
abbrev S1024x1024 : Shape := ⟨2, ![1024, 1024]⟩
abbrev S32 : Shape := ⟨1, ![32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1024 : Shape := ⟨2, ![16, 1024]⟩
abbrev S1x1024 : Shape := ⟨2, ![1, 1024]⟩
abbrev S1024x32 : Shape := ⟨2, ![1024, 32]⟩
abbrev S16x32 : Shape := ⟨2, ![16, 32]⟩
abbrev S32x1 : Shape := ⟨2, ![32, 1]⟩
abbrev S32x2 : Shape := ⟨2, ![32, 2]⟩
abbrev S1x32 : Shape := ⟨2, ![1, 32]⟩
abbrev S256x32 : Shape := ⟨2, ![256, 32]⟩
abbrev S32x32 : Shape := ⟨2, ![32, 32]⟩
abbrev S16 : Shape := ⟨1, ![16]⟩
abbrev S16x1 : Shape := ⟨2, ![16, 1]⟩

abbrev nBuf : Space → Nat
  | .hbm => 144
  | .vmem => 0
  | .smem => 0
  | _ => 0

abbrev hbmTy0_0 (i : Nat) : BufTy := match i % 128 with
  | 0 => ⟨S16x2048x1024, .f32⟩
  | 1 => ⟨S32x1024, .f32⟩
  | 2 => ⟨S32x1024, .f32⟩
  | 3 => ⟨S33x1, .f32⟩
  | 4 => ⟨S32x256, .f32⟩
  | 5 => ⟨S1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S32, .i32⟩
  | 12 => ⟨S_, .i32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S16x2048x1024, .f32⟩
  | 20 => ⟨S16x2048x1024, .f32⟩
  | 21 => ⟨S16x2048x1024, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S16x2048x1024, .f32⟩
  | 29 => ⟨S16x2048x1024, .f32⟩
  | 30 => ⟨S_, .f32⟩
  | 31 => ⟨S16x2048x1, .f32⟩
  | 32 => ⟨S16x2048x1, .f32⟩
  | 33 => ⟨S16x2048x1, .f32⟩
  | 34 => ⟨S16x2048x1024, .f32⟩
  | 35 => ⟨S16x2048x1024, .f32⟩
  | 36 => ⟨S1x1x1024, .f32⟩
  | 37 => ⟨S16x2048x1024, .f32⟩
  | 38 => ⟨S16x2048x1024, .f32⟩
  | 39 => ⟨S1x1x1024, .f32⟩
  | 40 => ⟨S16x2048x1024, .f32⟩
  | 41 => ⟨S16x2048x1024, .f32⟩
  | 42 => ⟨S_, .f32⟩
  | 43 => ⟨S16x1024, .f32⟩
  | 44 => ⟨S_, .f32⟩
  | 45 => ⟨S16x1024, .f32⟩
  | 46 => ⟨S16x1024, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S1x1024, .f32⟩
  | 61 => ⟨S1024, .f32⟩
  | 62 => ⟨S1x1024, .f32⟩
  | 63 => ⟨S16x1024, .f32⟩
  | 64 => ⟨S16x1024, .f32⟩
  | 65 => ⟨S32x1024, .f32⟩
  | 66 => ⟨S1024x1024, .f32⟩
  | 67 => ⟨S16x1024, .f32⟩
  | 68 => ⟨S1x1024, .f32⟩
  | 69 => ⟨S16x1024, .f32⟩
  | 70 => ⟨S16x1024, .f32⟩
  | 71 => ⟨S1024x1024, .f32⟩
  | 72 => ⟨S32x1024, .f32⟩
  | 73 => ⟨S1x1024, .f32⟩
  | 74 => ⟨S32x1024, .f32⟩
  | 75 => ⟨S32x1024, .f32⟩
  | 76 => ⟨S1024x32, .f32⟩
  | 77 => ⟨S16x32, .f32⟩
  | 78 => ⟨S_, .f32⟩
  | 79 => ⟨S_, .f32⟩
  | 80 => ⟨S16x32, .f32⟩
  | 81 => ⟨S16x32, .f32⟩
  | 82 => ⟨S32, .i32⟩
  | 83 => ⟨S32, .i32⟩
  | 84 => ⟨S32, .i32⟩
  | 85 => ⟨S32, .i32⟩
  | 86 => ⟨S_, .i32⟩
  | 87 => ⟨S32, .i32⟩
  | 88 => ⟨S32, .i1⟩
  | 89 => ⟨S_, .i32⟩
  | 90 => ⟨S32, .i32⟩
  | 91 => ⟨S32, .i32⟩
  | 92 => ⟨S32, .i32⟩
  | 93 => ⟨S_, .i32⟩
  | 94 => ⟨S32, .i32⟩
  | 95 => ⟨S32, .i32⟩
  | 96 => ⟨S32x1, .i32⟩
  | 97 => ⟨S32x1, .i32⟩
  | 98 => ⟨S32x2, .i32⟩
  | 99 => ⟨S32, .f32⟩
  | 100 => ⟨S1x32, .f32⟩
  | 101 => ⟨S16x32, .f32⟩
  | 102 => ⟨S16x32, .f32⟩
  | 103 => ⟨S256x32, .f32⟩
  | 104 => ⟨S32x32, .f32⟩
  | 105 => ⟨S_, .i32⟩
  | 106 => ⟨S32, .i32⟩
  | 107 => ⟨S32, .i1⟩
  | 108 => ⟨S32, .i32⟩
  | 109 => ⟨S32, .i32⟩
  | 110 => ⟨S32, .i1⟩
  | 111 => ⟨S32, .i1⟩
  | 112 => ⟨S_, .i32⟩
  | 113 => ⟨S32, .i32⟩
  | 114 => ⟨S32, .i32⟩
  | 115 => ⟨S32, .f32⟩
  | 116 => ⟨S32x1, .i1⟩
  | 117 => ⟨S32x1, .f32⟩
  | 118 => ⟨S32x32, .f32⟩
  | 119 => ⟨S32x32, .f32⟩
  | 120 => ⟨S_, .f32⟩
  | 121 => ⟨S_, .f32⟩
  | 122 => ⟨S32x32, .i1⟩
  | 123 => ⟨S32x32, .f32⟩
  | 124 => ⟨S32x32, .f32⟩
  | 125 => ⟨S_, .f32⟩
  | 126 => ⟨S32, .f32⟩
  | 127 => ⟨S1x32, .f32⟩
  | _ => ⟨S16x2048x1024, .f32⟩

abbrev hbmTy0_1 (i : Nat) : BufTy := match i % 128 with
  | 0 => ⟨S16x32, .f32⟩
  | 1 => ⟨S16x32, .f32⟩
  | 2 => ⟨S_, .f32⟩
  | 3 => ⟨S16, .f32⟩
  | 4 => ⟨S_, .f32⟩
  | 5 => ⟨S16, .f32⟩
  | 6 => ⟨S16, .f32⟩
  | 7 => ⟨S16x1, .f32⟩
  | 8 => ⟨S16x32, .f32⟩
  | 9 => ⟨S16x32, .f32⟩
  | 10 => ⟨S16x32, .f32⟩
  | 11 => ⟨S_, .f32⟩
  | 12 => ⟨S16, .f32⟩
  | 13 => ⟨S16x1, .f32⟩
  | 14 => ⟨S16x32, .f32⟩
  | 15 => ⟨S16x32, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_c_8 : Ref sig .tc := ⟨.hbm, 53, rfl⟩
abbrev main_v30 : Ref sig .tc := ⟨.hbm, 54, rfl⟩
abbrev main_c_9 : Ref sig .tc := ⟨.hbm, 55, rfl⟩
abbrev main_c_10 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v87 : Ref sig .tc := ⟨.hbm, 124, rfl⟩
abbrev main_cst_19 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_cst_21 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x1024_S16x1024_d1 : S16x2048x1024.ReducesTo [1] S16x1024
  bcast_S_S16x1024 : S_.BroadcastsInDim S16x1024 (![] : Fin 0 → Fin S16x1024.rank)
  sliceFits_S32x1024_S1x1024 : S32x1024.Slices (fun _ => 0) S1x1024
  shapeCasts_S1x1024_S1024 : S1x1024.ShapeCasts S1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  transposes_S1024x1024_S1024x1024_1_0 : S1024x1024.Transposes [1, 0] S1024x1024
  bcast_S1x1024_S32x1024_0_1 : S1x1024.BroadcastsInDim S32x1024 (![0, 1] : Fin 2 → Fin S32x1024.rank)
  transposes_S32x1024_S1024x32_1_0 : S32x1024.Transposes [1, 0] S1024x32
  bcast_S_S16x32 : S_.BroadcastsInDim S16x32 (![] : Fin 0 → Fin S16x32.rank)
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  transposes_S32x256_S256x32_1_0 : S32x256.Transposes [1, 0] S256x32
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d0 : S32x32.ReducesTo [0] S32
  reducesTo_S16x32_S16_d1 : S16x32.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x32_0_1 : S16x1.BroadcastsInDim S16x32 (![0, 1] : Fin 2 → Fin S16x32.rank)
  dot_S16x1024_S1024x1024_S16x1024_1_0_0_1_n_n_wf : DotDims.WF S16x1024 S1024x1024 S16x1024 [1] [0] [0] [1] [] []
  dot_S32x1024_S1024x1024_S32x1024_1_0_0_1_n_n_wf : DotDims.WF S32x1024 S1024x1024 S32x1024 [1] [0] [0] [1] [] []
  dot_S16x1024_S1024x32_S16x32_1_0_0_1_n_n_wf : DotDims.WF S16x1024 S1024x32 S16x32 [1] [0] [0] [1] [] []
  gather_S33x1_S32x2_S32_n_01_n_n_01_1_11_wf : GatherDims.WF S33x1 S32x2 S32 [] [0, 1] [] [0, 1] [] 1 ![1, 1]
  dot_S32x256_S256x32_S32x32_1_0_0_1_n_n_wf : DotDims.WF S32x256 S256x32 S32x32 [1] [0] [0] [1] [] []

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S16x1024_S1024x32_S16x32_1_0_0_1_n_n : DotDims S16x1024 S1024x32 S16x32 where
  lhsContracting := [1]
  rhsContracting := [0]
  lhsNonContracting := [0]
  rhsNonContracting := [1]
  lhsBatch := []
  rhsBatch := []
  wf := dot_S16x1024_S1024x32_S16x32_1_0_0_1_n_n_wf
def gather_S33x1_S32x2_S32_n_01_n_n_01_1_11 : GatherDims S33x1 S32x2 S32 where
  offsetDims := []
  collapsedSliceDims := [0, 1]
  operandBatchingDims := []
  startIndicesBatchingDims := []
  startIndexMap := [0, 1]
  indexVectorDim := 1
  sliceSizes := ![1, 1]
  wf := gather_S33x1_S32x2_S32_n_01_n_n_01_1_11_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf

class Facts : Prop extends Facts₀ where

variable [Facts]
-- ==== Proof.BitsFrame.Setting.lean ====
/-
  The layer-norm-and-mean kernel's run, part 1: the setting.

  @main is ONE region — the grid of 2 × 16 points, point t = 16·b + s reading rows [8b, 8b+8) × [128s, 128s+128) of the
  hidden states — followed by 96 host operations that read the region's result and write fresh buffers only. Stated
  here: that those later lines touch no array of the region and write none (each writes its own result buffer, and the
  list `written` holds them all); what each window's block at a point is, read off its array as the region finds it; that an
  input's staging buffer holds that block at every point, fetched there or not (the scale and the shift are fetched
  once, at the first point); the body's two branch conditions in closed form — the accumulator is reset where
  s = 0 and the mean is written out where s = 15 —; and where the output window is idle.
-/
import proofs.«122109_j88742614270013_1_alg».proof.Proof.Gen.Kernel.Launch
import proofs.«122109_j88742614270013_1_alg».proof.Proof.Gen.Kernel.Skeleton
import proofs.«122109_j88742614270013_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The three stretches of host operations after the region, in order. -/
abbrev tailOps : List (List (HloOp τ sig (Elt F))) := [hostOps1, hostOps1_1, hostOps1_2]

/-- Core `c`'s buffer contents when the region is entered: the launch contents (no host operation comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall])
    (by simp only [List.Forall]) main_chain

/-- Every buffer a later line writes: the results of the 96 operations. -/
def written : List (Ref sig .tc) :=
  [main_c, main_v1, main_c_0, main_v2, main_v3, main_c_1, main_c_2, main_v4, main_c_3, main_c_4, main_v5, main_c_5, main_v6, main_v7, main_v8, main_v9, main_v10, main_v11, main_v12, main_v13, main_v14, main_v15, main_v16, main_v17, main_v18, main_v19, main_v20, main_v21, main_v22, main_v23, main_v24, main_cst, main_v25, main_v26, main_v27, main_v28, main_v29, main_v30, main_v31, main_c_6, main_v32, main_v33, main_c_7, main_v34, main_v35, main_v36, main_c_8, main_v37, main_v38, main_v39, main_v40, main_v41, main_v42, main_v43, main_v44, main_v45, main_v46, main_v47, main_c_9, main_v48, main_v49, main_v50, main_v51, main_v52, main_c_10, main_v53, main_v54, main_v55, main_v56, main_v57, main_v58, main_v59, main_cst_11, main_call0_v0, main_call0_v1, main_call0_v2, main_v60, main_cst_12, main_v61, main_v62, main_v63, main_v64, main_cst_13, main_v65, main_cst_14, main_v66, main_v67, main_v68, main_v69, main_v70, main_v71, main_cst_15, main_v72, main_v73, main_v74, main_v75]

/-- Each later line writes only its own result, which `written` lists. -/
theorem hostOps1_writes : (hostOps1 : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))
theorem hostOps1_1_writes : (hostOps1_1 : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))
theorem hostOps1_2_writes : (hostOps1_2 : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))

/-- The same over the three stretches laid end to end. -/
theorem tail_writes : ((tailOps (F := F)).flatten).Forall fun op =>
    op.writes ⊆ (written.map (Proc.devRef (τ := τ) .tc)).toFinset := by
  rw [List.forall_iff_forall_mem]
  intro op hop
  simp only [tailOps, List.flatten_cons, List.flatten_nil, List.append_nil, List.mem_append] at hop
  rcases hop with h | h | h
  · exact (List.forall_iff_forall_mem.mp hostOps1_writes) op h
  · exact (List.forall_iff_forall_mem.mp hostOps1_1_writes) op h
  · exact (List.forall_iff_forall_mem.mp hostOps1_2_writes) op h

/-- A buffer outside `written` is written by no later line. -/
theorem not_written {r : Ref sig .tc} (hr : r ∉ written) (ops : List (HloOp τ sig (Elt F))) (hops : ops ∈ (tailOps (F := F)))
    (op : HloOp τ sig (Elt F)) (hop : op ∈ ops) : Proc.devRef (τ := τ) .tc r ∉ op.writes := by
  intro hb
  have hsub := (List.forall_iff_forall_mem.mp (tail_writes (F := F))) op (List.mem_flatten.mpr ⟨ops, hops, hop⟩)
  obtain ⟨y, hy, he⟩ := List.mem_map.mp (List.mem_toFinset.mp (hsub hb))
  exact hr (Proc.devRef_injective _ he ▸ hy)

/-- The later lines touch the region's arrays and the buffers that bypass it, nothing else. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the region: the four arrays are not in `written`. -/
theorem sfx_keeps : ∀ ops ∈ (tailOps : List (List (HloOp τ sig (Elt F)))), ∀ op ∈ ops,
    ∀ w, Proc.devRef .tc (Pipeline.arrRef spec0 w) ∉ op.writes := by
  intro ops hops op hop w
  refine not_written ?_ ops hops op hop
  fin_cases w <;> decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The hidden states' staging buffer holds the point's block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The scale's staging buffer holds the whole scale at every point, although it is fetched at the first only. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the shift. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- An argument the region does not stage and no later line writes keeps its launch contents to the end. -/
theorem rest_kept (dats : (p : Fin 1) → (c : Dev nD) → Dat τ (Elt F) Unit ℕ (UR sig nD τ) ℕ (cfgs p) c) (c : Dev nD)
    (b : Ref sig .tc) (hb : b ∉ written) (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem _ _ (fun op hop => by
    obtain ⟨ops, hops, hop'⟩ := List.mem_flatten.mp hop
    exact not_written hb ops hops op hop')]
  exact Pipeline.withArrays_of_ne spec0 c _ _ b hne

/-- A frame run's post keeps the thirteen arguments: a staged input by the post's first clause, every other argument by its
    second, read after the later lines, which write none of them. -/
theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    ((h c).2 main_arg1 (by decide)).trans (rest_kept m dats c main_arg1 (by decide) (fun w => by fin_cases w <;> decide)),
    ((h c).2 main_arg2 (by decide)).trans (rest_kept m dats c main_arg2 (by decide) (fun w => by fin_cases w <;> decide)),
    ((h c).2 main_arg3 (by decide)).trans (rest_kept m dats c main_arg3 (by decide) (fun w => by fin_cases w <;> decide)),
    ((h c).2 main_arg4 (by decide)).trans (rest_kept m dats c main_arg4 (by decide) (fun w => by fin_cases w <;> decide)),
    ((h c).1 1).trans (((dats 0 c).arrAt_in 1 rfl _).trans ((hA c 1).trans (V_main_arg5 m c))),
    ((h c).1 2).trans (((dats 0 c).arrAt_in 2 rfl _).trans ((hA c 2).trans (V_main_arg6 m c))),
    ((h c).2 main_arg7 (by decide)).trans (rest_kept m dats c main_arg7 (by decide) (fun w => by fin_cases w <;> decide)),
    ((h c).2 main_arg8 (by decide)).trans (rest_kept m dats c main_arg8 (by decide) (fun w => by fin_cases w <;> decide)),
    ((h c).2 main_arg9 (by decide)).trans (rest_kept m dats c main_arg9 (by decide) (fun w => by fin_cases w <;> decide)),
    ((h c).2 main_arg10 (by decide)).trans (rest_kept m dats c main_arg10 (by decide) (fun w => by fin_cases w <;> decide)),
    ((h c).2 main_arg11 (by decide)).trans (rest_kept m dats c main_arg11 (by decide) (fun w => by fin_cases w <;> decide)),
    ((h c).2 main_arg12 (by decide)).trans (rest_kept m dats c main_arg12 (by decide) (fun w => by fin_cases w <;> decide))⟩

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => post_args m dats hA r h c) h

/-! ## The body's branch conditions -/

/-- The accumulator is reset: the first `scf.if`'s condition, from the grid coordinates. -/
abbrev cond0_0 (i : grid0.Coords) : Prop := (Scalar.cmpi .ne (Scalar.extui (Scalar.cmpi .eq (BitVec.ofNat 32 (i 1).val) 0#32)) 0#32) = 1#1
/-- It holds at the first sequence tile of each batch block. -/
theorem hcond0_0 : ∀ t : Fin cfg0.N, cond0_0 (grid0.coords t) ↔ t.val % 16 = 0 :=
  (by decide +kernel : ∀ t : Fin grid0.N, cond0_0 (grid0.coords t) ↔ t.val % 16 = 0)

/-- The mean is written out: the second `scf.if`'s condition. -/
abbrev cond0_1 (i : grid0.Coords) : Prop := k0_cond2 i = 1#1
/-- It holds at the last sequence tile of each batch block. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last sequence tile the body stores nothing into the output window, -/
theorem idleAt0_3 : ∀ t : Fin cfg0.N, ¬cond0_1 (grid0.coords t) → cfg0.idle 3 (grid0.coords t) = true := by decide +kernel
/-- and the pipeline does not write its block back there; -/
theorem noFlush0_3 : ∀ t : Fin cfg0.N, ¬cond0_1 (grid0.coords t) → (cfg0.win 3).flush t = false := by decide +kernel
/-- at the last tile it stores the mean. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S8x1024 .f32 := (Memref.whole cc0_stg3_0 : Memref sig .tc .vmem S8x1024 .f32).view
abbrev ms0_0 (t : Fin cfg0.N) : Memref sig .tc .vmem S8x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S8x1024 .f32 := Memref.whole cc0_scratch0
abbrev VS0_0 : View sig .tc .vmem S8x1024 .f32 := scM0_0.view

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.BitsFrame.First.lean ====
/-
  The layer-norm-and-mean kernel's run, part 2: the body at the FIRST sequence tile of a batch block (s = 0).

  The accumulator is reset to zero and the tile's contribution added; the output window is left untouched. The body is run
  once, on any whole staging memrefs: the inputs' at their contents, the output's at contents handed back as found,
  the accumulator at anything. What the accumulator ends with is the list of pieces the run's stores leave.
-/
import proofs.«122109_j88742614270013_1_alg».proof.Proof.BitsFrame.Setting

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is reset and the mean is not yet written: the pieces the accumulator ends with, and the
    run that leaves them. -/
noncomputable def runFirst (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) :
    Σ' (L3 : List (View.Piece (Elt F) S8x1024 .f32)), { LS0 : List (View.Piece (Elt F) S8x1024 .f32) //
      ∀ (xi3 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lambda_ i arg2 harg2 arg3 harg3 arg4 harg4 arg5 harg5 arg6 harg6) K } := by
  refine ⟨[], ?_, fun xi3 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.BitsFrame.Middle.lean ====
/-
  The layer-norm-and-mean kernel's run, part 3: the body at a MIDDLE sequence tile (0 < s < 15).

  The tile's contribution is added to what the tile before left in the accumulator; the output window is left untouched.
-/
import proofs.«122109_j88742614270013_1_alg».proof.Proof.BitsFrame.First

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is kept and the mean is not yet written. -/
noncomputable def runMiddle (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) :
    Σ' (L3 : List (View.Piece (Elt F) S8x1024 .f32)), { LS0 : List (View.Piece (Elt F) S8x1024 .f32) //
      ∀ (xi3 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lambda_ i arg2 harg2 arg3 harg3 arg4 harg4 arg5 harg5 arg6 harg6) K } := by
  refine ⟨[], ?_, fun xi3 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.BitsFrame.Last.lean ====
/-
  The layer-norm-and-mean kernel's run, part 4: the body at the LAST sequence tile of a batch block (s = 15).

  The tile's contribution is added to the accumulator, and the accumulator times 1/2048 is stored over the whole output
  block.
-/
import proofs.«122109_j88742614270013_1_alg».proof.Proof.BitsFrame.Middle

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is kept and the mean is written out: the pieces the output block and the accumulator
    end with, and the run that leaves them. -/
noncomputable def runLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) :
    Σ' (L3 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__lambda_ i arg2 harg2 arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.BitsFrame.Run.lean ====
/-
  The layer-norm-and-mean kernel's run, part 5: the accumulation, the proof data, the run and the frame.

  Over the 32 grid points t = 16·b + s the accumulator holds, after point t, what the body's case at t leaves in it:
  at s = 0 the reset accumulator plus the tile's contribution, afterwards what the point before left plus the tile's
  contribution (`heldAfter`, by recursion on the point). The output block of batch block b is stored once, at s = 15, and
  written back there; elsewhere the output window is idle. With these as proof data the body meets its obligation at every
  point — by cases on s = 0, 0 < s < 15, s = 15, each that case's run —, the region runs between the launch and the 96 later host
  lines, and every argument ends as it began.
-/
import proofs.«122109_j88742614270013_1_alg».proof.Proof.BitsFrame.Last

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a point where the output window is idle its entry in the proof data is never consulted: a placeholder. -/
def outNone : Vec F S8x1024 .f32 := VO0_3.read (Elt F) (VO0_3.writes (Elt F) VO0_3.junk [])

theorem coverAccFirst (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) (y : S8x1024.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S8x1024.size (by sl_kernel_rfl) y
/-- What the first tile leaves in the accumulator. -/
def accFirst (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) : Vec F S8x1024 .f32 :=
  VS0_0.read (Elt F) (VS0_0.writes (Elt F) VS0_0.junk (runFirst c i arg2 harg2 arg3 harg3 arg4 harg4 arg5 harg5 arg6 harg6 hc0 hc1 x0 x1 x2).2.1)

theorem coverAccMiddle (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) (y : S8x1024.Idx) :
    ∃ pc ∈ (runMiddle c i arg2 harg2 arg3 harg3 arg4 harg4 arg5 harg5 arg6 harg6 hc0 hc1 x0 x1 x2 xs0).2.1, y ∈ pc.1.set :=
  View.cover_of_tiledL (runMiddle c i arg2 harg2 arg3 harg3 arg4 harg4 arg5 harg5 arg6 harg6 hc0 hc1 x0 x1 x2 xs0).2.1 S8x1024.size (by sl_kernel_rfl) y
/-- What a middle tile leaves in the accumulator, over what the tile before left. -/
def accMiddle (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) : Vec F S8x1024 .f32 :=
  VS0_0.read (Elt F) (VS0_0.writes (Elt F) VS0_0.junk (runMiddle c i arg2 harg2 arg3 harg3 arg4 harg4 arg5 harg5 arg6 harg6 hc0 hc1 x0 x1 x2 xs0).2.1)

theorem coverAccLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) (y : S8x1024.Idx) :
    ∃ pc ∈ (runLast c i arg2 harg2 arg3 harg3 arg4 harg4 arg5 harg5 arg6 harg6 hc0 hc1 x0 x1 x2 xs0).2.1, y ∈ pc.1.set :=
  View.cover_of_tiledL (runLast c i arg2 harg2 arg3 harg3 arg4 harg4 arg5 harg5 arg6 harg6 hc0 hc1 x0 x1 x2 xs0).2.1 S8x1024.size (by sl_kernel_rfl) y
/-- What the last tile leaves in the accumulator. -/
def accLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) : Vec F S8x1024 .f32 :=
  VS0_0.read (Elt F) (VS0_0.writes (Elt F) VS0_0.junk (runLast c i arg2 harg2 arg3 harg3 arg4 harg4 arg5 harg5 arg6 harg6 hc0 hc1 x0 x1 x2 xs0).2.1)

theorem coverOutLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) (y : S8x1024.Idx) :
    ∃ pc ∈ (runLast c i arg2 harg2 arg3 harg3 arg4 harg4 arg5 harg5 arg6 harg6 hc0 hc1 x0 x1 x2 xs0).1, y ∈ pc.1.set :=
  View.cover_of_tiledL (runLast c i arg2 harg2 arg3 harg3 arg4 harg4 arg5 harg5 arg6 harg6 hc0 hc1 x0 x1 x2 xs0).1 S8x1024.size (by sl_kernel_rfl) y
/-- What the last tile leaves in the output block. -/
def outLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) : Vec F S8x1024 .f32 :=
  VO0_3.read (Elt F) (VO0_3.writes (Elt F) VO0_3.junk (runLast c i arg2 harg2 arg3 harg3 arg4 harg4 arg5 harg5 arg6 harg6 hc0 hc1 x0 x1 x2 xs0).1)

/-! ## The accumulation, point by point -/

/-- What the output window's staging buffer and the accumulator hold after the body at position `n`. -/
def heldAfter (c : Dev nD) : (n : ℕ) → n < cfg0.N → Vec F S8x1024 .f32 × Vec F S8x1024 .f32
  | 0, hn => (outNone, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (outNone, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (heldAfter c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (heldAfter c n (Nat.lt_of_succ_lt hn)).2)
      else
        (outNone, accMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (heldAfter c n (Nat.lt_of_succ_lt hn)).2)

/-- At a first tile. -/
theorem heldAfter_first (c : Dev nD) (t : Fin cfg0.N) (h0 : t.val % 16 = 0) (h1 : ¬t.val % 16 = 15) :
    heldAfter m c t.val t.isLt = (outNone, accFirst c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a middle tile: over what the point before left. -/
theorem heldAfter_middle (c : Dev nD) (t : Fin cfg0.N) (h0 : ¬t.val % 16 = 0) (h1 : ¬t.val % 16 = 15) :
    heldAfter m c t.val t.isLt = (outNone, accMiddle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem heldAfter_last (c : Dev nD) (t : Fin cfg0.N) (h0 : ¬t.val % 16 = 0) (h1 : t.val % 16 = 15) :
    heldAfter m c t.val t.isLt = (outLast c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (heldAfter m c (t.val - 1) (Nat.lt_of_le_of_lt (Nat.sub_le _ _) t.isLt)).2,
      accLast c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start what the launch hands over (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((heldAfter m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((heldAfter m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((heldAfter m c (n - 1) (by omega)).2)) ∗ (∃ r, prngReg c r)) := by
  cases n with
  | zero => exact absurd rfl hz
  | succ n => rfl

/-! ## The proof data -/

/-- The proof data of the region on core `c`: the arrays as the region finds them; after the body at point `t` each
    input's buffer at its block and the output's at `heldAfter`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (heldAfter m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (heldAfter m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the inputs' memrefs hold their blocks; the closed forms say which case the point is in; the
    invariant hands the body the accumulator at what the point before left (at anything at the very first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 16 = 0
  · have h1 : ¬t.val % 16 = 15 := by omega
    rw [Dat.leavesExact_idle (dats m 0 c) 3 t (idleAt0_3 t (fun h => h1 ((hcond0_1 t).mp h))) (noFlush0_3 t (fun h => h1 ((hcond0_1 t).mp h)))]
    rw [heldAfter_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverAccFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverAccFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [heldAfter_last m c t h0 h1]
      unfold outLast accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runLast c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (coverAccLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [heldAfter_middle m c t h0 h1]
      unfold accMiddle; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runMiddle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverAccMiddle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the region at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: @main runs to the end, faults nowhere, and leaves its thirteen arguments unchanged — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Frame

end
-- ==== Proof.IdealFrame.Setting.lean ====
/-
  The layer-norm-and-mean kernel's run, part 1: the setting.

  @main is ONE region — the grid of 2 × 16 points, point t = 16·b + s reading rows [8b, 8b+8) × [128s, 128s+128) of the
  hidden states — followed by 96 host operations that read the region's result and write fresh buffers only. Stated
  here: that those later lines touch no array of the region and write none (each writes its own result buffer, and the
  list `written` holds them all); what each window's block at a point is, read off its array as the region finds it; that an
  input's staging buffer holds that block at every point, fetched there or not (the scale and the shift are fetched
  once, at the first point); the body's two branch conditions in closed form — the accumulator is reset where
  s = 0 and the mean is written out where s = 15 —; and where the output window is idle.
-/
import proofs.«122109_j88742614270013_1_alg».proof.Proof.Gen.KernelIdeal.Launch
import proofs.«122109_j88742614270013_1_alg».proof.Proof.Gen.KernelIdeal.Skeleton
import proofs.«122109_j88742614270013_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The three stretches of host operations after the region, in order. -/
abbrev tailOps : List (List (HloOp τ sig (Elt F))) := [hostOps1, hostOps1_1, hostOps1_2]

/-- Core `c`'s buffer contents when the region is entered: the launch contents (no host operation comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall])
    (by simp only [List.Forall]) main_chain

/-- Every buffer a later line writes: the results of the 96 operations. -/
def written : List (Ref sig .tc) :=
  [main_c, main_v1, main_c_0, main_v2, main_v3, main_c_1, main_c_2, main_v4, main_c_3, main_c_4, main_v5, main_c_5, main_v6, main_v7, main_v8, main_v9, main_v10, main_v11, main_v12, main_v13, main_v14, main_v15, main_v16, main_v17, main_v18, main_v19, main_v20, main_v21, main_v22, main_v23, main_v24, main_cst, main_v25, main_v26, main_v27, main_v28, main_v29, main_v30, main_v31, main_c_6, main_v32, main_v33, main_c_7, main_v34, main_v35, main_v36, main_c_8, main_v37, main_v38, main_v39, main_v40, main_v41, main_v42, main_v43, main_v44, main_v45, main_v46, main_v47, main_c_9, main_v48, main_v49, main_v50, main_v51, main_v52, main_c_10, main_v53, main_v54, main_v55, main_v56, main_v57, main_v58, main_v59, main_cst_11, main_call0_v0, main_call0_v1, main_call0_v2, main_v60, main_cst_12, main_v61, main_v62, main_v63, main_v64, main_cst_13, main_v65, main_cst_14, main_v66, main_v67, main_v68, main_v69, main_v70, main_v71, main_cst_15, main_v72, main_v73, main_v74, main_v75]

/-- Each later line writes only its own result, which `written` lists. -/
theorem hostOps1_writes : (hostOps1 : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))
theorem hostOps1_1_writes : (hostOps1_1 : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))
theorem hostOps1_2_writes : (hostOps1_2 : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))

/-- The same over the three stretches laid end to end. -/
theorem tail_writes : ((tailOps (F := F)).flatten).Forall fun op =>
    op.writes ⊆ (written.map (Proc.devRef (τ := τ) .tc)).toFinset := by
  rw [List.forall_iff_forall_mem]
  intro op hop
  simp only [tailOps, List.flatten_cons, List.flatten_nil, List.append_nil, List.mem_append] at hop
  rcases hop with h | h | h
  · exact (List.forall_iff_forall_mem.mp hostOps1_writes) op h
  · exact (List.forall_iff_forall_mem.mp hostOps1_1_writes) op h
  · exact (List.forall_iff_forall_mem.mp hostOps1_2_writes) op h

/-- A buffer outside `written` is written by no later line. -/
theorem not_written {r : Ref sig .tc} (hr : r ∉ written) (ops : List (HloOp τ sig (Elt F))) (hops : ops ∈ (tailOps (F := F)))
    (op : HloOp τ sig (Elt F)) (hop : op ∈ ops) : Proc.devRef (τ := τ) .tc r ∉ op.writes := by
  intro hb
  have hsub := (List.forall_iff_forall_mem.mp (tail_writes (F := F))) op (List.mem_flatten.mpr ⟨ops, hops, hop⟩)
  obtain ⟨y, hy, he⟩ := List.mem_map.mp (List.mem_toFinset.mp (hsub hb))
  exact hr (Proc.devRef_injective _ he ▸ hy)

/-- The later lines touch the region's arrays and the buffers that bypass it, nothing else. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the region: the four arrays are not in `written`. -/
theorem sfx_keeps : ∀ ops ∈ (tailOps : List (List (HloOp τ sig (Elt F)))), ∀ op ∈ ops,
    ∀ w, Proc.devRef .tc (Pipeline.arrRef spec0 w) ∉ op.writes := by
  intro ops hops op hop w
  refine not_written ?_ ops hops op hop
  fin_cases w <;> decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The hidden states' staging buffer holds the point's block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The scale's staging buffer holds the whole scale at every point, although it is fetched at the first only. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the shift. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- An argument the region does not stage and no later line writes keeps its launch contents to the end. -/
theorem rest_kept (dats : (p : Fin 1) → (c : Dev nD) → Dat τ (Elt F) Unit ℕ (UR sig nD τ) ℕ (cfgs p) c) (c : Dev nD)
    (b : Ref sig .tc) (hb : b ∉ written) (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem _ _ (fun op hop => by
    obtain ⟨ops, hops, hop'⟩ := List.mem_flatten.mp hop
    exact not_written hb ops hops op hop')]
  exact Pipeline.withArrays_of_ne spec0 c _ _ b hne

/-- A frame run's post keeps the thirteen arguments: a staged input by the post's first clause, every other argument by its
    second, read after the later lines, which write none of them. -/
theorem post_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    ((h c).2 main_arg1 (by decide)).trans (rest_kept m dats c main_arg1 (by decide) (fun w => by fin_cases w <;> decide)),
    ((h c).2 main_arg2 (by decide)).trans (rest_kept m dats c main_arg2 (by decide) (fun w => by fin_cases w <;> decide)),
    ((h c).2 main_arg3 (by decide)).trans (rest_kept m dats c main_arg3 (by decide) (fun w => by fin_cases w <;> decide)),
    ((h c).2 main_arg4 (by decide)).trans (rest_kept m dats c main_arg4 (by decide) (fun w => by fin_cases w <;> decide)),
    ((h c).1 1).trans (((dats 0 c).arrAt_in 1 rfl _).trans ((hA c 1).trans (V_main_arg5 m c))),
    ((h c).1 2).trans (((dats 0 c).arrAt_in 2 rfl _).trans ((hA c 2).trans (V_main_arg6 m c))),
    ((h c).2 main_arg7 (by decide)).trans (rest_kept m dats c main_arg7 (by decide) (fun w => by fin_cases w <;> decide)),
    ((h c).2 main_arg8 (by decide)).trans (rest_kept m dats c main_arg8 (by decide) (fun w => by fin_cases w <;> decide)),
    ((h c).2 main_arg9 (by decide)).trans (rest_kept m dats c main_arg9 (by decide) (fun w => by fin_cases w <;> decide)),
    ((h c).2 main_arg10 (by decide)).trans (rest_kept m dats c main_arg10 (by decide) (fun w => by fin_cases w <;> decide)),
    ((h c).2 main_arg11 (by decide)).trans (rest_kept m dats c main_arg11 (by decide) (fun w => by fin_cases w <;> decide)),
    ((h c).2 main_arg12 (by decide)).trans (rest_kept m dats c main_arg12 (by decide) (fun w => by fin_cases w <;> decide))⟩

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => post_args m dats hA r h c) h

/-! ## The body's branch conditions -/

/-- The accumulator is reset: the first `scf.if`'s condition, from the grid coordinates. -/
abbrev cond0_0 (i : grid0.Coords) : Prop := (Scalar.cmpi .ne (Scalar.extui (Scalar.cmpi .eq (BitVec.ofNat 32 (i 1).val) 0#32)) 0#32) = 1#1
/-- It holds at the first sequence tile of each batch block. -/
theorem hcond0_0 : ∀ t : Fin cfg0.N, cond0_0 (grid0.coords t) ↔ t.val % 16 = 0 :=
  (by decide +kernel : ∀ t : Fin grid0.N, cond0_0 (grid0.coords t) ↔ t.val % 16 = 0)

/-- The mean is written out: the second `scf.if`'s condition. -/
abbrev cond0_1 (i : grid0.Coords) : Prop := k0_cond2 i = 1#1
/-- It holds at the last sequence tile of each batch block. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last sequence tile the body stores nothing into the output window, -/
theorem idleAt0_3 : ∀ t : Fin cfg0.N, ¬cond0_1 (grid0.coords t) → cfg0.idle 3 (grid0.coords t) = true := by decide +kernel
/-- and the pipeline does not write its block back there; -/
theorem noFlush0_3 : ∀ t : Fin cfg0.N, ¬cond0_1 (grid0.coords t) → (cfg0.win 3).flush t = false := by decide +kernel
/-- at the last tile it stores the mean. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S8x1024 .f32 := (Memref.whole cc0_stg3_0 : Memref sig .tc .vmem S8x1024 .f32).view
abbrev ms0_0 (t : Fin cfg0.N) : Memref sig .tc .vmem S8x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S8x1024 .f32 := Memref.whole cc0_scratch0
abbrev VS0_0 : View sig .tc .vmem S8x1024 .f32 := scM0_0.view

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.IdealFrame.First.lean ====
/-
  The layer-norm-and-mean kernel's run, part 2: the body at the FIRST sequence tile of a batch block (s = 0).

  The accumulator is reset to zero and the tile's contribution added; the output window is left untouched. The body is run
  once, on any whole staging memrefs: the inputs' at their contents, the output's at contents handed back as found,
  the accumulator at anything. What the accumulator ends with is the list of pieces the run's stores leave.
-/
import proofs.«122109_j88742614270013_1_alg».proof.Proof.IdealFrame.Setting

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is reset and the mean is not yet written: the pieces the accumulator ends with, and the
    run that leaves them. -/
noncomputable def runFirst (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) :
    Σ' (L3 : List (View.Piece (Elt F) S8x1024 .f32)), { LS0 : List (View.Piece (Elt F) S8x1024 .f32) //
      ∀ (xi3 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lambda_ i arg2 harg2 arg3 harg3 arg4 harg4 arg5 harg5 arg6 harg6) K } := by
  refine ⟨[], ?_, fun xi3 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealFrame.Middle.lean ====
/-
  The layer-norm-and-mean kernel's run, part 3: the body at a MIDDLE sequence tile (0 < s < 15).

  The tile's contribution is added to what the tile before left in the accumulator; the output window is left untouched.
-/
import proofs.«122109_j88742614270013_1_alg».proof.Proof.IdealFrame.First

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is kept and the mean is not yet written. -/
noncomputable def runMiddle (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) :
    Σ' (L3 : List (View.Piece (Elt F) S8x1024 .f32)), { LS0 : List (View.Piece (Elt F) S8x1024 .f32) //
      ∀ (xi3 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__lambda_ i arg2 harg2 arg3 harg3 arg4 harg4 arg5 harg5 arg6 harg6) K } := by
  refine ⟨[], ?_, fun xi3 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealFrame.Last.lean ====
/-
  The layer-norm-and-mean kernel's run, part 4: the body at the LAST sequence tile of a batch block (s = 15).

  The tile's contribution is added to the accumulator, and the accumulator times 1/2048 is stored over the whole output
  block.
-/
import proofs.«122109_j88742614270013_1_alg».proof.Proof.IdealFrame.Middle

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the accumulator is kept and the mean is written out: the pieces the output block and the accumulator
    end with, and the run that leaves them. -/
noncomputable def runLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) :
    Σ' (L3 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__lambda_ i arg2 harg2 arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.IdealFrame.Run.lean ====
/-
  The layer-norm-and-mean kernel's run, part 5: the accumulation, the proof data, the run and the frame.

  Over the 32 grid points t = 16·b + s the accumulator holds, after point t, what the body's case at t leaves in it:
  at s = 0 the reset accumulator plus the tile's contribution, afterwards what the point before left plus the tile's
  contribution (`heldAfter`, by recursion on the point). The output block of batch block b is stored once, at s = 15, and
  written back there; elsewhere the output window is idle. With these as proof data the body meets its obligation at every
  point — by cases on s = 0, 0 < s < 15, s = 15, each that case's run —, the region runs between the launch and the 96 later host
  lines, and every argument ends as it began.
-/
import proofs.«122109_j88742614270013_1_alg».proof.Proof.IdealFrame.Last

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a point where the output window is idle its entry in the proof data is never consulted: a placeholder. -/
def outNone : Vec F S8x1024 .f32 := VO0_3.read (Elt F) (VO0_3.writes (Elt F) VO0_3.junk [])

theorem coverAccFirst (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) (y : S8x1024.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S8x1024.size (by sl_kernel_rfl) y
/-- What the first tile leaves in the accumulator. -/
def accFirst (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) : Vec F S8x1024 .f32 :=
  VS0_0.read (Elt F) (VS0_0.writes (Elt F) VS0_0.junk (runFirst c i arg2 harg2 arg3 harg3 arg4 harg4 arg5 harg5 arg6 harg6 hc0 hc1 x0 x1 x2).2.1)

theorem coverAccMiddle (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) (y : S8x1024.Idx) :
    ∃ pc ∈ (runMiddle c i arg2 harg2 arg3 harg3 arg4 harg4 arg5 harg5 arg6 harg6 hc0 hc1 x0 x1 x2 xs0).2.1, y ∈ pc.1.set :=
  View.cover_of_tiledL (runMiddle c i arg2 harg2 arg3 harg3 arg4 harg4 arg5 harg5 arg6 harg6 hc0 hc1 x0 x1 x2 xs0).2.1 S8x1024.size (by sl_kernel_rfl) y
/-- What a middle tile leaves in the accumulator, over what the tile before left. -/
def accMiddle (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) : Vec F S8x1024 .f32 :=
  VS0_0.read (Elt F) (VS0_0.writes (Elt F) VS0_0.junk (runMiddle c i arg2 harg2 arg3 harg3 arg4 harg4 arg5 harg5 arg6 harg6 hc0 hc1 x0 x1 x2 xs0).2.1)

theorem coverAccLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) (y : S8x1024.Idx) :
    ∃ pc ∈ (runLast c i arg2 harg2 arg3 harg3 arg4 harg4 arg5 harg5 arg6 harg6 hc0 hc1 x0 x1 x2 xs0).2.1, y ∈ pc.1.set :=
  View.cover_of_tiledL (runLast c i arg2 harg2 arg3 harg3 arg4 harg4 arg5 harg5 arg6 harg6 hc0 hc1 x0 x1 x2 xs0).2.1 S8x1024.size (by sl_kernel_rfl) y
/-- What the last tile leaves in the accumulator. -/
def accLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) : Vec F S8x1024 .f32 :=
  VS0_0.read (Elt F) (VS0_0.writes (Elt F) VS0_0.junk (runLast c i arg2 harg2 arg3 harg3 arg4 harg4 arg5 harg5 arg6 harg6 hc0 hc1 x0 x1 x2 xs0).2.1)

theorem coverOutLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) (y : S8x1024.Idx) :
    ∃ pc ∈ (runLast c i arg2 harg2 arg3 harg3 arg4 harg4 arg5 harg5 arg6 harg6 hc0 hc1 x0 x1 x2 xs0).1, y ∈ pc.1.set :=
  View.cover_of_tiledL (runLast c i arg2 harg2 arg3 harg3 arg4 harg4 arg5 harg5 arg6 harg6 hc0 hc1 x0 x1 x2 xs0).1 S8x1024.size (by sl_kernel_rfl) y
/-- What the last tile leaves in the output block. -/
def outLast (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) : Vec F S8x1024 .f32 :=
  VO0_3.read (Elt F) (VO0_3.writes (Elt F) VO0_3.junk (runLast c i arg2 harg2 arg3 harg3 arg4 harg4 arg5 harg5 arg6 harg6 hc0 hc1 x0 x1 x2 xs0).1)

/-! ## The accumulation, point by point -/

/-- What the output window's staging buffer and the accumulator hold after the body at position `n`. -/
def heldAfter (c : Dev nD) : (n : ℕ) → n < cfg0.N → Vec F S8x1024 .f32 × Vec F S8x1024 .f32
  | 0, hn => (outNone, accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      if h1 : (n + 1) % 16 = 15 then
        False.elim (by omega)
      else
        (outNone, accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 16 = 15 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (heldAfter c n (Nat.lt_of_succ_lt hn)).2,
         accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (heldAfter c n (Nat.lt_of_succ_lt hn)).2)
      else
        (outNone, accMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (heldAfter c n (Nat.lt_of_succ_lt hn)).2)

/-- At a first tile. -/
theorem heldAfter_first (c : Dev nD) (t : Fin cfg0.N) (h0 : t.val % 16 = 0) (h1 : ¬t.val % 16 = 15) :
    heldAfter m c t.val t.isLt = (outNone, accFirst c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a middle tile: over what the point before left. -/
theorem heldAfter_middle (c : Dev nD) (t : Fin cfg0.N) (h0 : ¬t.val % 16 = 0) (h1 : ¬t.val % 16 = 15) :
    heldAfter m c t.val t.isLt = (outNone, accMiddle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem heldAfter_last (c : Dev nD) (t : Fin cfg0.N) (h0 : ¬t.val % 16 = 0) (h1 : t.val % 16 = 15) :
    heldAfter m c t.val t.isLt = (outLast c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (heldAfter m c (t.val - 1) (Nat.lt_of_le_of_lt (Nat.sub_le _ _) t.isLt)).2,
      accLast c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (heldAfter m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start what the launch hands over (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((heldAfter m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((heldAfter m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((heldAfter m c (n - 1) (by omega)).2)) ∗ (∃ r, prngReg c r)) := by
  cases n with
  | zero => exact absurd rfl hz
  | succ n => rfl

/-! ## The proof data -/

/-- The proof data of the region on core `c`: the arrays as the region finds them; after the body at point `t` each
    input's buffer at its block and the output's at `heldAfter`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (heldAfter m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (heldAfter m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the inputs' memrefs hold their blocks; the closed forms say which case the point is in; the
    invariant hands the body the accumulator at what the point before left (at anything at the very first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 16 = 0
  · have h1 : ¬t.val % 16 = 15 := by omega
    rw [Dat.leavesExact_idle (dats m 0 c) 3 t (idleAt0_3 t (fun h => h1 ((hcond0_1 t).mp h))) (noFlush0_3 t (fun h => h1 ((hcond0_1 t).mp h)))]
    rw [heldAfter_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverAccFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runFirst c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverAccFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [heldAfter_last m c t h0 h1]
      unfold outLast accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runLast c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (coverAccLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [heldAfter_middle m c t h0 h1]
      unfold accMiddle; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runMiddle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverAccMiddle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, and every final state has every array of the region at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: @main runs to the end, faults nowhere, and leaves its thirteen arguments unchanged — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Frame

end
-- ==== Proof.Mean.Pieces.lean ====
/-
  What each case of the body leaves, read back as values.

  At a first tile the accumulator ends at the payload of the second store, computed from the tile, the scale, the shift and
  the zeros the reset had just stored; at a middle or last tile at the same payload over what the tile before left; and at a
  last tile the output block ends at the write-out payload of the accumulator's new contents. Each buffer is written by
  covering stores of the whole buffer, so reading the pieces back gives the last store's payload.
-/
import proofs.«122109_j88742614270013_1_alg».proof.Proof.IdealFrame.Run
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the accumulator at the accumulation payload over what it found. -/
theorem accMiddle_eq (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x128x1024 .f32) (x1 : Vec F S1024 .f32) (x2 : Vec F S1024 .f32) (xs0 : Vec F S8x1024 .f32) :
    accMiddle c i arg2 harg2 arg3 harg3 arg4 harg4 arg5 harg5 arg6 harg6 hc0 hc1 x0 x1 x2 xs0 = k0_pay3 x0 x1 x2 xs0 := by
  unfold accMiddle
  rw [View.read_writes_eq_canon _ _ _ (coverAccMiddle c i arg2 harg2 arg3 harg3 arg4 harg4 arg5 harg5 arg6 harg6 hc0 hc1 x0 x1 x2 xs0)]
  unfold runMiddle
  dsimp only
  sl_unfold_words
  rw [View.canon_unit_zero hz2]
  simp only [View.readAt_eq_ld, harg2.read_unread, harg3.read_unread, harg4.read_unread, harg6.read_unread,
    View.ld_unit_zero (S := S8x128x1024) hz3, View.ld_unit_zero (S := S1024) hz1, View.ld_unit_zero (S := S8x1024) hz2]

/-- A last tile leaves the accumulator at the same payload, -/
theorem accLast_eq (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) :
    accLast c i arg2 harg2 arg3 harg3 arg4 harg4 arg5 harg5 arg6 harg6 hc0 hc1 x0 x1 x2 xs0 = k0_pay3 x0 x1 x2 xs0 := by
  unfold accLast
  rw [View.read_writes_eq_canon _ _ _ (coverAccLast c i arg2 harg2 arg3 harg3 arg4 harg4 arg5 harg5 arg6 harg6 hc0 hc1 x0 x1 x2 xs0)]
  unfold runLast
  dsimp only
  sl_unfold_words
  rw [View.canon_unit_zero hz2]
  simp only [View.readAt_eq_ld, harg2.read_unread, harg3.read_unread, harg4.read_unread, harg6.read_unread,
    View.ld_unit_zero (S := S8x128x1024) hz3, View.ld_unit_zero (S := S1024) hz1, View.ld_unit_zero (S := S8x1024) hz2]

/-- and the output block at the write-out payload of it. -/
theorem outLast_eq (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x128x1024 .f32) (x1 : Vec F S1024 .f32) (x2 : Vec F S1024 .f32) (xs0 : Vec F S8x1024 .f32) :
    outLast c i arg2 harg2 arg3 harg3 arg4 harg4 arg5 harg5 arg6 harg6 hc0 hc1 x0 x1 x2 xs0 = k0_pay1 (k0_pay3 x0 x1 x2 xs0) := by
  unfold outLast
  rw [View.read_writes_eq_canon _ _ _ (coverOutLast c i arg2 harg2 arg3 harg3 arg4 harg4 arg5 harg5 arg6 harg6 hc0 hc1 x0 x1 x2 xs0)]
  unfold runLast
  dsimp only
  sl_unfold_words
  rw [View.canon_unit_zero hz2]
  simp only [View.readAt_eq_ld, harg2.read_unread, harg3.read_unread, harg4.read_unread, harg6.read_unread,
    View.ld_unit_zero (S := S8x128x1024) hz3, View.ld_unit_zero (S := S1024) hz1, View.ld_unit_zero (S := S8x1024) hz2,
    View.readCov_unit_zero (S := S8x1024) _ hz2]

/-- A first tile leaves the accumulator at the payload over the zeros the reset stored. -/
theorem accFirst_eq (c : Dev nD) (i : grid0.Coords) (arg2 : Memref sig .tc .vmem S8x128x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x128x1024 .f32) (x1 : Vec F S1024 .f32) (x2 : Vec F S1024 .f32) :
    accFirst c i arg2 harg2 arg3 harg3 arg4 harg4 arg5 harg5 arg6 harg6 hc0 hc1 x0 x1 x2 = k0_pay3 x0 x1 x2 (k0_pay2 (F := F)) := by
  unfold accFirst
  rw [View.read_writes_eq_canon _ _ _ (coverAccFirst c i arg2 harg2 arg3 harg3 arg4 harg4 arg5 harg5 arg6 harg6 hc0 hc1 x0 x1 x2)]
  unfold runFirst
  dsimp only
  sl_unfold_words
  rw [View.canon_cons_unit_zero (S := S8x1024) hz2]
  simp only [View.readAt_eq_ld, harg2.read_unread, harg3.read_unread, harg4.read_unread,
    View.ld_unit_zero (S := S8x128x1024) hz3, View.ld_unit_zero (S := S1024) hz1, View.ld_unit_zero (S := S8x1024) hz2,
    View.readCov_unit_zero (S := S8x1024) _ hz2]

end Cert.KernelIdeal.Frame

end
-- ==== Proof.LnSpec.lean ====
/-
  The specification both programs are read against: one entry of a layer-normalised row.

  For a row of 1024 extended reals, with n = 1024 and ε the two printed f32 words (the same words in both programs, so they
  are never evaluated): the row's mean is (Σ row) / n, its variance (Σ (row − mean)²) / n, and the normalised entry at
  column q, scaled by g and shifted by b, is (row q − mean) · rsqrt(variance + ε) · g + b. Division and the reciprocal
  square root are the ideal instance's own total operations on the extended reals.
-/
import Idealize.ShloMosaic.PureOps.Ideal
import Idealize.ShloMosaic.Lib.ValueIdx

noncomputable section

namespace Cert.LnSpec

open Idealize.ShloMosaic

/-- The row's mean: its sum over the 1024 columns divided by the word for 1024. -/
def rowMean (row : Fin 1024 → EReal) : EReal :=
  Ideal.div (∑ k, row k) (Ideal.ofBits .f32 0x44800000#32)

/-- The row's variance about that mean. -/
def rowVar (row : Fin 1024 → EReal) : EReal :=
  Ideal.div (∑ k, (row k - rowMean row) * (row k - rowMean row)) (Ideal.ofBits .f32 0x44800000#32)

/-- The normalised entry at column `q`, scaled by `g` and shifted by `b`. -/
def lnEntry (row : Fin 1024 → EReal) (g b : EReal) (q : Fin 1024) : EReal :=
  (row q - rowMean row) * Ideal.rsqrt (rowVar row + Ideal.ofBits .f32 0x3727C5AC#32) * g + b

/-- The mean over the 2048 sequence positions of the normalised entries of batch row `b` at column `h`: their sum divided
    by the word for 2048. -/
def meanAt (X : (⟨3, ![16, 2048, 1024]⟩ : Shape).Idx → EReal) (G B : (⟨1, ![1024]⟩ : Shape).Idx → EReal)
    (b : Fin 16) (h : Fin 1024) : EReal :=
  Ideal.div (∑ s : Fin 2048, lnEntry (fun k => X (ValueIdx.ix3 b s k)) (G (ValueIdx.ix1 h)) (B (ValueIdx.ix1 h)) h)
    (Ideal.ofBits .f32 0x45000000#32)

end Cert.LnSpec

end
-- ==== Proof.LibUnitAxes.lean ====
/-
  Forms with a trailing or leading unit axis, read at an index, and two lane sums at the ideal values.

  A keepdims reduction over the last axis of a rank-3 array goes through four layout steps, each a plain re-indexing:
    [a, b] → [a, b, 1] (shape cast): the entry at (i, j, 0) is the operand's at (i, j);
    [a, b, 1] → [a, b, n] (broadcast): the entry at (i, j, k) is the operand's at (i, j, 0);
    [n] → [1, 1, n] (shape cast): the entry at (0, 0, k) is the operand's at k;
    [1, 1, n] → [a, b, n] (broadcast): the entry at (i, j, k) is the operand's at (0, 0, k).
  At the ideal values a float add-reduction of a rank-3 array along its last axis is, at (i, j), the sum over k of the
  entries (i, j, k), and along its middle axis, at (i, k), the sum over j of the entries (i, j, k). The two sums are
  stated with the accumulator hypothesis typed as the equation of words a printed program carries.
-/
import Idealize.ShloMosaic.Lib.Pipeline.Value
import Idealize.ShloMosaic.Lib.ValueIdx
import Idealize.ShloMosaic.PureOps.Ideal.Laws

noncomputable section

namespace Cert.UnitAxes

open Idealize.ShloMosaic Idealize.ShloMosaic.ValueIdx

variable {α : Type}

/-- [a, b] → [a, b, 1]: the entry at (i, j, u) is the operand's at (i, j). -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [n] → [1, 1, n]: the entry at (u, v, k) is the operand's at k. -/
theorem cast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]; simp)

/-- [a, b, 1] → [a, b, n] for n ≠ 1... stated for any n: the entry at (i, j, k) is the operand's at (i, j, 0). -/
theorem bcast_ab1_abn_apply {a b n : ℕ} (x : (⟨3, ![a, b, 1]⟩ : Shape).Idx → α)
    (h : (⟨3, ![a, b, 1]⟩ : Shape).Broadcasts ⟨3, ![a, b, n]⟩) (ha : a ≠ 1) (hb : b ≠ 1) (i : Fin a) (j : Fin b) (k : Fin n) :
    broadcastTo ⟨3, ![a, b, n]⟩ x h (ix3 i j k) = x (ix3 i j (0 : Fin 1)) :=
  broadcastTo_apply x h _ _ (fun c => by
    match c with
    | ⟨0, _⟩ => show i.val = if a = 1 then 0 else i.val; rw [if_neg ha]
    | ⟨1, _⟩ => show j.val = if b = 1 then 0 else j.val; rw [if_neg hb]
    | ⟨2, _⟩ => show (0 : ℕ) = if (1 : ℕ) = 1 then 0 else k.val; rw [if_pos rfl])

/-- [1, 1, n] → [a, b, n]: the entry at (i, j, k) is the operand's at (0, 0, k). -/
theorem bcast_11n_abn_apply {a b n : ℕ} (x : (⟨3, ![1, 1, n]⟩ : Shape).Idx → α)
    (h : (⟨3, ![1, 1, n]⟩ : Shape).Broadcasts ⟨3, ![a, b, n]⟩) (hn : n ≠ 1) (i : Fin a) (j : Fin b) (k : Fin n) :
    broadcastTo ⟨3, ![a, b, n]⟩ x h (ix3 i j k) = x (ix3 (0 : Fin 1) (0 : Fin 1) k) :=
  broadcastTo_apply x h _ _ (fun c => by
    match c with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ => show k.val = if n = 1 then 0 else k.val; rw [if_neg hn])

/-- A float add-reduction along the LAST axis of a rank-3 array, at the ideal values: at (i, j) the sum over k of the
    entries (i, j, k). The accumulator hypothesis is the equation of words a printed program carries. -/
theorem sum_last_apply {a b n : ℕ} (src : FVec Ideal ⟨3, ![a, b, n]⟩ .f32)
    (h : (⟨3, ![a, b, n]⟩ : Shape).Reduces [(2 : Fin 3)] ⟨2, ![a, b]⟩) (hφ : FKind.Formats .f32)
    (hacc : (0x00000000#32 : BitVec 32) = 0x00000000#32) (i : Fin a) (j : Fin b) :
    multiReduction .add [(2 : Fin 3)] ⟨2, ![a, b]⟩ src 0x00000000#32 h hφ hacc (ix2 i j) = ∑ k : Fin n, src (ix3 i j k) := by
  refine (Ideal.multiReduction_add_single src 0x00000000#32 h hφ hacc (ix2 i j)).trans ?_
  refine Finset.sum_congr rfl fun k _ => congrArg src (funext fun c => Fin.ext ?_)
  match c with
  | ⟨0, _⟩ => rfl
  | ⟨1, _⟩ => rfl
  | ⟨2, _⟩ => rfl

/-- A float add-reduction along the MIDDLE axis of a rank-3 array, at the ideal values: at (i, k) the sum over j of the
    entries (i, j, k). -/
theorem sum_middle_apply {a b n : ℕ} (src : FVec Ideal ⟨3, ![a, b, n]⟩ .f32)
    (h : (⟨3, ![a, b, n]⟩ : Shape).Reduces [(1 : Fin 3)] ⟨2, ![a, n]⟩) (hφ : FKind.Formats .f32)
    (hacc : (0x00000000#32 : BitVec 32) = 0x00000000#32) (i : Fin a) (k : Fin n) :
    multiReduction .add [(1 : Fin 3)] ⟨2, ![a, n]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src (funext fun c => Fin.ext ?_)
  match c with
  | ⟨0, _⟩ => rfl
  | ⟨1, _⟩ => rfl
  | ⟨2, _⟩ => rfl

end Cert.UnitAxes

end
-- ==== Proof.Mean.Payload.lean ====
/-
  The kernel body's arithmetic read at an index, at the ideal values.

  On a tile x of shape [8, 128, 1024] (8 batch rows, 128 sequence positions, 1024 features), with the scale g and the
  shift b of length 1024, the body computes, position by position along the feature axis: the row mean kept as a
  column [8, 128, 1] (`colOf`), the centred tile (`centered`), the reciprocal square root of the variance plus ε as a
  column (`invStd`), and the normalised, scaled and shifted tile (`normed`). Its entry at (p, r, q) is the
  specification's `lnEntry` of row (p, r) at column q. The accumulator's new contents are the old ones plus the sum of
  `normed` over the 128 sequence positions; the reset stores zeros; the write-out multiplies by the word for 1/2048.
-/
import proofs.«122109_j88742614270013_1_alg».proof.Proof.Gen.KernelIdeal.Skeleton
import proofs.«122109_j88742614270013_1_alg».proof.Proof.LnSpec
import proofs.«122109_j88742614270013_1_alg».proof.Proof.LibUnitAxes

noncomputable section

namespace Cert.KernelIdeal.Mean

open Idealize.ShloMosaic Idealize.ShloMosaic.ValueIdx Idealize.SL.Sem
open Cert.KernelIdeal Cert.KernelIdeal.Gen Cert.LnSpec Cert.UnitAxes

/-- The sum along the feature axis divided by the word for 1024, kept as a column. -/
def colOf (v : FVec Ideal S8x128x1024 .f32) : FVec Ideal S8x128x1 .f32 :=
  divf (shapeCast S8x128x1 (multiReduction .add [2] S8x128 v 0x00000000#32 reduces_S8x128x1024_S8x128 (.inl rfl) rfl) shapeCasts_S8x128_S8x128x1)
    (broadcast S8x128x1 (Scalar.ofBits .f32 0x44800000#32))

theorem colOf_apply (v : FVec Ideal S8x128x1024 .f32) (p : Fin 8) (r : Fin 128) :
    colOf v (ix3 p r (0 : Fin 1)) = Ideal.div (∑ k : Fin 1024, v (ix3 p r k)) (Ideal.ofBits .f32 0x44800000#32) := by
  unfold colOf
  rw [divf_apply]
  refine congrArg₂ Ideal.div ?_ rfl
  refine (cast_ab_ab1_apply _ _ p r 0).trans ?_
  exact sum_last_apply _ _ _ _ p r

/-- The tile less its row means. -/
def centered (v : FVec Ideal S8x128x1024 .f32) : FVec Ideal S8x128x1024 .f32 :=
  subf v (broadcastTo S8x128x1024 (colOf v) broadcasts_S8x128x1_S8x128x1024)

theorem centered_apply (v : FVec Ideal S8x128x1024 .f32) (p : Fin 8) (r : Fin 128) (k : Fin 1024) :
    centered v (ix3 p r k) = v (ix3 p r k) - rowMean (fun k => v (ix3 p r k)) := by
  unfold centered
  rw [subf_apply]
  refine congrArg (v (ix3 p r k) - ·) ?_
  refine (bcast_ab1_abn_apply _ _ (by decide) (by decide) p r k).trans ?_
  exact colOf_apply v p r

/-- The reciprocal square root of the row variance plus ε, as a column. -/
def invStd (v : FVec Ideal S8x128x1024 .f32) : FVec Ideal S8x128x1 .f32 :=
  rsqrt (addf (colOf (mulf (centered v) (centered v))) (broadcast S8x128x1 (Scalar.ofBits .f32 0x3727C5AC#32)))

theorem invStd_apply (v : FVec Ideal S8x128x1024 .f32) (p : Fin 8) (r : Fin 128) :
    invStd v (ix3 p r (0 : Fin 1)) = Ideal.rsqrt (rowVar (fun k => v (ix3 p r k)) + Ideal.ofBits .f32 0x3727C5AC#32) := by
  unfold invStd
  show Ideal.rsqrt (colOf (mulf (centered v) (centered v)) (ix3 p r (0 : Fin 1)) + Ideal.ofBits .f32 0x3727C5AC#32) = _
  refine congrArg (fun z => Ideal.rsqrt (z + Ideal.ofBits .f32 0x3727C5AC#32)) ?_
  refine (colOf_apply _ p r).trans ?_
  unfold rowVar
  refine congrArg (fun z => Ideal.div z (Ideal.ofBits .f32 0x44800000#32)) ?_
  refine Finset.sum_congr rfl fun k _ => ?_
  rw [mulf_apply, centered_apply]

/-- The normalised tile, scaled by g and shifted by b along the feature axis. -/
def normed (v : FVec Ideal S8x128x1024 .f32) (g b : FVec Ideal S1024 .f32) : FVec Ideal S8x128x1024 .f32 :=
  addf (mulf (mulf (centered v) (broadcastTo S8x128x1024 (invStd v) broadcasts_S8x128x1_S8x128x1024))
      (broadcastTo S8x128x1024 (shapeCast S1x1x1024 g shapeCasts_S1024_S1x1x1024) broadcasts_S1x1x1024_S8x128x1024))
    (broadcastTo S8x128x1024 (shapeCast S1x1x1024 b shapeCasts_S1024_S1x1x1024) broadcasts_S1x1x1024_S8x128x1024)

theorem normed_apply (v : FVec Ideal S8x128x1024 .f32) (g b : FVec Ideal S1024 .f32) (p : Fin 8) (r : Fin 128) (q : Fin 1024) :
    normed v g b (ix3 p r q) = lnEntry (fun k => v (ix3 p r k)) (g (ix1 q)) (b (ix1 q)) q := by
  unfold normed lnEntry
  rw [addf_apply, mulf_apply, mulf_apply, centered_apply]
  have e1 : broadcastTo S8x128x1024 (invStd v) broadcasts_S8x128x1_S8x128x1024 (ix3 p r q)
      = Ideal.rsqrt (rowVar (fun k => v (ix3 p r k)) + Ideal.ofBits .f32 0x3727C5AC#32) :=
    (bcast_ab1_abn_apply _ _ (by decide) (by decide) p r q).trans (invStd_apply v p r)
  have e2 : broadcastTo S8x128x1024 (shapeCast S1x1x1024 g shapeCasts_S1024_S1x1x1024) broadcasts_S1x1x1024_S8x128x1024 (ix3 p r q) = g (ix1 q) :=
    (bcast_11n_abn_apply _ _ (by decide) p r q).trans (cast_n_11n_apply _ _ 0 0 q)
  have e3 : broadcastTo S8x128x1024 (shapeCast S1x1x1024 b shapeCasts_S1024_S1x1x1024) broadcasts_S1x1x1024_S8x128x1024 (ix3 p r q) = b (ix1 q) :=
    (bcast_11n_abn_apply _ _ (by decide) p r q).trans (cast_n_11n_apply _ _ 0 0 q)
  rw [e1, e2, e3]

/-- The accumulator's new contents: the old ones plus the tile's normalised entries summed over its 128 positions. -/
theorem pay3_eq (x0 : Vec Ideal S8x128x1024 .f32) (x1 x2 : Vec Ideal S1024 .f32) (xs : Vec Ideal S8x1024 .f32) :
    k0_pay3 (F := Ideal) x0 x1 x2 xs
      = addf xs (multiReduction .add [1] S8x1024 (normed x0 x1 x2) 0x00000000#32 reduces_S8x128x1024_S8x1024 (.inl rfl) rfl) := by
  unfold k0_pay3
  exact shapeCast_self _ _

theorem pay3_apply (x0 : Vec Ideal S8x128x1024 .f32) (x1 x2 : Vec Ideal S1024 .f32) (xs : Vec Ideal S8x1024 .f32) (p : Fin 8) (q : Fin 1024) :
    k0_pay3 (F := Ideal) x0 x1 x2 xs (ix2 p q)
      = xs (ix2 p q) + ∑ r : Fin 128, lnEntry (fun k => x0 (ix3 p r k)) (x1 (ix1 q)) (x2 (ix1 q)) q := by
  rw [pay3_eq, addf_apply]
  refine congrArg (xs (ix2 p q) + ·) ?_
  refine (sum_middle_apply _ _ _ _ p q).trans ?_
  exact Finset.sum_congr rfl fun r _ => normed_apply x0 x1 x2 p r q

/-- The reset stores zeros. -/
theorem pay2_apply (p : Fin 8) (q : Fin 1024) : k0_pay2 (F := Ideal) (ix2 p q) = 0 := by
  unfold k0_pay2
  rw [shapeCast_self]
  exact Ideal.ofBits_zero_f32

/-- The write-out multiplies by the word for 1/2048. -/
theorem pay1_apply (v : Vec Ideal S8x1024 .f32) (p : Fin 8) (q : Fin 1024) :
    k0_pay1 (F := Ideal) v (ix2 p q) = v (ix2 p q) * Ideal.ofBits .f32 0x3A000000#32 := rfl

end Cert.KernelIdeal.Mean

end
-- ==== Proof.LibTiledSum.lean ====
/-
  Two general facts used when a sum over 2048 positions is computed tile by tile and a mean is taken by a folded reciprocal.

  (a) A sum over the 2048 positions s is the sum over the 16 tiles j of the sums over the 128 positions r inside a tile, the
      position being s = 128 · j + r. Every s below 2048 is of that form for exactly one pair (j, r): the pairing is a
      bijection of Fin 16 × Fin 128 with Fin 2048, and a sum over a product is the iterated sum.
  (b) The f32 word 0x45000000 denotes the real 2048 = 2¹¹ and the word 0x3A000000 denotes 1/2048 = 2⁻¹¹. The ideal division
      by a nonzero real is the product with its reciprocal on every extended real (the infinities included), so dividing by
      the first word is multiplying by the second.
-/
import Mathlib
import Idealize.ShloMosaic.PureOps.Ideal

noncomputable section

open scoped BigOperators

namespace Cert.TiledSum

open Idealize.ShloMosaic

/-- The bijection (j, r) ↦ 128 · j + r of the 16 tiles of 128 positions with the 2048 positions. -/
def tileEquiv : Fin 16 × Fin 128 ≃ Fin 2048 where
  toFun p := ⟨128 * p.1.val + p.2.val, by omega⟩
  invFun s := (⟨s.val / 128, by omega⟩, ⟨s.val % 128, by omega⟩)
  left_inv p := by
    rcases p with ⟨j, r⟩
    refine Prod.ext (Fin.ext ?_) (Fin.ext ?_)
    · show (128 * j.val + r.val) / 128 = j.val
      omega
    · show (128 * j.val + r.val) % 128 = r.val
      omega
  right_inv s := Fin.ext (by
    show 128 * (s.val / 128) + s.val % 128 = s.val
    omega)

/-- A sum over 2048 positions regrouped as 16 tiles of 128: the position s is 128 · j + r. -/
theorem sum_tiles {M : Type*} [AddCommMonoid M] (f : Fin 2048 → M) :
    ∑ s : Fin 2048, f s = ∑ j : Fin 16, ∑ r : Fin 128, f ⟨128 * j.val + r.val, by omega⟩ := by
  rw [← Equiv.sum_comp tileEquiv f, Fintype.sum_prod_type]
  rfl

/-- The f32 word 0x45000000 denotes the real 2048. -/
theorem ofBits_2048 : Ideal.ofBits .f32 0x45000000#32 = ((2048 : ℝ) : EReal) := by
  simp [Ideal.ofBits, Ideal.ieee, -EReal.coe_mul]; norm_num

/-- The f32 word 0x3A000000 denotes the real 1 / 2048. -/
theorem ofBits_inv_2048 : Ideal.ofBits .f32 0x3A000000#32 = ((1 / 2048 : ℝ) : EReal) := by
  simp [Ideal.ofBits, Ideal.ieee, -EReal.coe_mul]; norm_num

/-- Dividing by the word for 2048 is multiplying by the word for 1 / 2048, on every extended real. -/
theorem div_2048 (x : EReal) :
    Ideal.div x (Ideal.ofBits .f32 0x45000000#32) = x * Ideal.ofBits .f32 0x3A000000#32 := by
  rw [ofBits_2048, ofBits_inv_2048]
  exact Ideal.div_coe (by norm_num) x

end Cert.TiledSum

end
-- ==== Proof.Mean.Sum.lean ====
/-
  The region's result: after the run the output array holds the mean of the normalised entries.

  Point t = 16·b + s of the grid reads rows [8b, 8b+8) × [128s, 128s+128) of the hidden states and the whole scale and
  shift. By induction on the point the accumulator holds, after point t, at (p, q), the sum over the tiles j ≤ s of batch
  block b of tile j's contribution — the sum over its 128 positions of the normalised entry of row (8b+p, 128j+r) at column q.
  At s = 15 the output block is that sum times the word for 1/2048, and it is written back to rows [8b, 8b+8) of the result;
  the two write-backs cover the result array. Regrouping the 16 × 128 positions as one sum over 2048, and multiplying by
  1/2048 being dividing by 2048, the array ends at the mean the specification names.
-/
import proofs.«122109_j88742614270013_1_alg».proof.Proof.Mean.Pieces
import proofs.«122109_j88742614270013_1_alg».proof.Proof.Mean.Payload
import proofs.«122109_j88742614270013_1_alg».proof.Proof.LibTiledSum
import Idealize.ShloMosaic.Lib.Pipeline.Value

set_option maxRecDepth 16384

noncomputable section

namespace Cert.KernelIdeal.Mean

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame Cert.LnSpec

variable (m : (ℓ : Loc nD τ sig) → Buf (Elt Ideal) ℓ) (ρ : Dev nD → PrngReg)

-- what the cases leave is used here only through the lemmas that read it back as payloads: never unfolded
attribute [local irreducible] accFirst accMiddle accLast outLast runFirst runMiddle runLast heldAfter

/-! ## The printed index maps over the grid -/

theorem idx0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx1 : ∀ t : Fin cfg0.N, win0_1.index t (0 : Fin 1) = 0 := (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 2) = t.val / 16 ∧ win0_3.index t (1 : Fin 2) = 0 :=
  (by decide +kernel : ∀ t : Fin grid0.N, _)

theorem lt32 (t : Fin cfg0.N) : t.val < 32 := lt_of_lt_of_eq t.isLt (show cfg0.N = 32 from N_0)

/-! ## The blocks, read off the arrays -/

/-- The hidden states' tile at point t: rows 8·(t/16) + p, positions 128·(t%16) + r. -/
theorem tile_apply (c : Dev nD) (t : Fin cfg0.N) (p : Fin 8) (r : Fin 128) (k : Fin 1024) :
    (iblk m c 0 t : Vec Ideal S8x128x1024 .f32) (ix3 p r k)
      = V m c main_arg0 (ix3 (⟨8 * (t.val / 16) + p.val, by have := lt32 t; omega⟩ : Fin 16)
          (⟨128 * (t.val % 16) + r.val, by omega⟩ : Fin 2048) k) := by
  obtain ⟨e0, e1, e2⟩ := idx0 t
  unfold iblk
  rw [View.read_apply]
  show V m c main_arg0 _ = V m c main_arg0 _
  congr 1
  funext a
  apply Fin.ext
  match a with
  | ⟨0, _⟩ => show win0_0.index t (0 : Fin 3) * 8 + 1 * p.val = 8 * (t.val / 16) + p.val; rw [e0]; omega
  | ⟨1, _⟩ => show win0_0.index t (1 : Fin 3) * 128 + 1 * r.val = 128 * (t.val % 16) + r.val; rw [e1]; omega
  | ⟨2, _⟩ => show win0_0.index t (2 : Fin 3) * 1024 + 1 * k.val = k.val; rw [e2]; omega

/-- The scale's block is the whole scale, -/
theorem scale_apply (c : Dev nD) (t : Fin cfg0.N) (q : Fin 1024) :
    (iblk m c 1 t : Vec Ideal S1024 .f32) (ix1 q) = V m c main_arg5 (ix1 q) := by
  have e0 := idx1 t
  unfold iblk
  rw [View.read_apply]
  show V m c main_arg5 _ = V m c main_arg5 _
  congr 1
  funext a
  apply Fin.ext
  match a with
  | ⟨0, _⟩ => show win0_1.index t (0 : Fin 1) * 1024 + 1 * q.val = q.val; rw [e0]; omega

/-- and the shift's the whole shift. -/
theorem shift_apply (c : Dev nD) (t : Fin cfg0.N) (q : Fin 1024) :
    (iblk m c 2 t : Vec Ideal S1024 .f32) (ix1 q) = V m c main_arg6 (ix1 q) := by
  have e0 := idx2 t
  unfold iblk
  rw [View.read_apply]
  show V m c main_arg6 _ = V m c main_arg6 _
  congr 1
  funext a
  apply Fin.ext
  match a with
  | ⟨0, _⟩ => show win0_2.index t (0 : Fin 1) * 1024 + 1 * q.val = q.val; rw [e0]; omega

/-! ## The running sum -/

/-- Row (bi, si) of the hidden states as a function of the column (zero outside the array: never met). -/
def xrow (c : Dev nD) (bi si : ℕ) : Fin 1024 → EReal := fun k =>
  if h : bi < 16 ∧ si < 2048 then V m c main_arg0 (ix3 (⟨bi, h.1⟩ : Fin 16) (⟨si, h.2⟩ : Fin 2048) k) else 0

/-- Tile t's contribution at (p, q): its 128 normalised entries at column q, summed. -/
def contrib (c : Dev nD) (t : ℕ) (p : Fin 8) (q : Fin 1024) : EReal :=
  ∑ r : Fin 128, lnEntry (xrow m c (8 * (t / 16) + p.val) (128 * (t % 16) + r.val)) (V m c main_arg5 (ix1 q)) (V m c main_arg6 (ix1 q)) q

/-- What the body adds to the accumulator at point t is tile t's contribution. -/
theorem tile_contrib (c : Dev nD) (t : Fin cfg0.N) (p : Fin 8) (q : Fin 1024) :
    (∑ r : Fin 128, lnEntry (fun k => (iblk m c 0 t : Vec Ideal S8x128x1024 .f32) (ix3 p r k))
        ((iblk m c 1 t : Vec Ideal S1024 .f32) (ix1 q)) ((iblk m c 2 t : Vec Ideal S1024 .f32) (ix1 q)) q)
      = contrib m c t.val p q := by
  unfold contrib
  refine Finset.sum_congr rfl fun r _ => ?_
  rw [scale_apply, shift_apply]
  refine congrArg (fun row => lnEntry row (V m c main_arg5 (ix1 q)) (V m c main_arg6 (ix1 q)) q) ?_
  funext k
  rw [tile_apply]
  unfold xrow
  rw [dif_pos ⟨by have := lt32 t; omega, by omega⟩]

/-- At a first tile the accumulator ends at the accumulation payload over zeros, -/
theorem held_first (c : Dev nD) (t : Fin cfg0.N) (h0 : t.val % 16 = 0) (h1 : ¬t.val % 16 = 15) :
    (heldAfter m c t.val t.isLt).2
      = k0_pay3 (F := Ideal) (iblk m c 0 t) (iblk m c 1 t) (iblk m c 2 t) (k0_pay2 (F := Ideal)) := by
  rw [heldAfter_first m c t h0 h1]
  dsimp only
  exact accFirst_eq c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)

/-- at any later tile of the batch block at the payload over what the point before left, -/
theorem held_step (c : Dev nD) (t : Fin cfg0.N) (h0 : ¬t.val % 16 = 0) :
    (heldAfter m c t.val t.isLt).2
      = k0_pay3 (F := Ideal) (iblk m c 0 t) (iblk m c 1 t) (iblk m c 2 t)
          (heldAfter m c (t.val - 1) (Nat.lt_of_le_of_lt (Nat.sub_le _ _) t.isLt)).2 := by
  by_cases h1 : t.val % 16 = 15
  · rw [heldAfter_last m c t h0 h1]
    dsimp only
    exact accLast_eq c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _
  · rw [heldAfter_middle m c t h0 h1]
    dsimp only
    exact accMiddle_eq c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _

/-- and at a last tile the output block ends at the write-out payload of the same. -/
theorem held_out (c : Dev nD) (t : Fin cfg0.N) (h0 : ¬t.val % 16 = 0) (h1 : t.val % 16 = 15) :
    (heldAfter m c t.val t.isLt).1
      = k0_pay1 (F := Ideal) (k0_pay3 (F := Ideal) (iblk m c 0 t) (iblk m c 1 t) (iblk m c 2 t)
          (heldAfter m c (t.val - 1) (Nat.lt_of_le_of_lt (Nat.sub_le _ _) t.isLt)).2) := by
  rw [heldAfter_last m c t h0 h1]
  dsimp only
  exact outLast_eq c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _

/-- THE ACCUMULATION: after position n the accumulator holds the contributions of the tiles of n's batch block up to n. -/
theorem acc_eq (c : Dev nD) : ∀ (n : ℕ) (h : n < cfg0.N) (p : Fin 8) (q : Fin 1024),
    (heldAfter m c n h).2 (ix2 p q) = ∑ j ∈ Finset.range (n % 16 + 1), contrib m c (16 * (n / 16) + j) p q
  | 0, h, p, q => by
    refine (congrFun (held_first m c ⟨0, h⟩ rfl (show ¬(0 : ℕ) % 16 = 15 by decide)) (ix2 p q)).trans ?_
    rw [pay3_apply, pay2_apply, zero_add, tile_contrib m c ⟨0, h⟩ p q]
    simp
  | n + 1, h, p, q => by
    by_cases h0 : (n + 1) % 16 = 0
    · refine (congrFun (held_first m c ⟨n + 1, h⟩ h0 (show ¬(n + 1) % 16 = 15 by omega)) (ix2 p q)).trans ?_
      rw [pay3_apply, pay2_apply, zero_add, tile_contrib m c ⟨n + 1, h⟩ p q]
      show contrib m c (n + 1) p q = _
      rw [h0]
      simp only [Nat.zero_add, Finset.sum_range_one, Nat.add_zero]
      have e : n + 1 = 16 * ((n + 1) / 16) := by omega
      rw [← e]
    · refine (congrFun (held_step m c ⟨n + 1, h⟩ h0) (ix2 p q)).trans ?_
      rw [pay3_apply, tile_contrib m c ⟨n + 1, h⟩ p q]
      have ih := acc_eq c n (Nat.lt_of_succ_lt h) p q
      have hmod : (n + 1) % 16 = n % 16 + 1 := by omega
      have hdiv : (n + 1) / 16 = n / 16 := by omega
      have e : n + 1 = 16 * (n / 16) + (n % 16 + 1) := by omega
      show (heldAfter m c n _).2 (ix2 p q) + contrib m c (n + 1) p q = _
      rw [ih, hmod, hdiv]
      conv_rhs => rw [Finset.sum_range_succ]
      rw [← e]

/-- At a last tile the output block is the accumulator's new contents times the word for 1/2048. -/
theorem out_eq (c : Dev nD) (t : Fin cfg0.N) (h15 : t.val % 16 = 15) (p : Fin 8) (q : Fin 1024) :
    (heldAfter m c t.val t.isLt).1 (ix2 p q)
      = (∑ j ∈ Finset.range 16, contrib m c (16 * (t.val / 16) + j) p q) * Ideal.ofBits .f32 0x3A000000#32 := by
  have h0 : ¬t.val % 16 = 0 := by omega
  have hacc := acc_eq m c t.val t.isLt p q
  rw [h15] at hacc
  rw [held_out m c t h0 h15, ← held_step m c t h0, pay1_apply, hacc]

/-! ## The result array -/

/-- The mean the specification names, as an array over (batch row, column). -/
def meanArr (X : (⟨3, ![16, 2048, 1024]⟩ : Shape).Idx → EReal) (G B : (⟨1, ![1024]⟩ : Shape).Idx → EReal) :
    (⟨2, ![16, 1024]⟩ : Shape).Idx → EReal := fun i => meanAt X G B (i 0) (i 1)

/-- The sixteen tiles' contributions of batch block b at (p, q), times 1/2048, are the mean of row 8b + p at column q. -/
theorem block_mean (c : Dev nD) (b : ℕ) (hb : b < 2) (p : Fin 8) (q : Fin 1024) :
    (∑ j ∈ Finset.range 16, contrib m c (16 * b + j) p q) * Ideal.ofBits .f32 0x3A000000#32
      = meanAt (V m c main_arg0) (V m c main_arg5) (V m c main_arg6) (⟨8 * b + p.val, by omega⟩ : Fin 16) q := by
  unfold meanAt
  rw [Cert.TiledSum.div_2048, Cert.TiledSum.sum_tiles, Finset.sum_range]
  refine congrArg (· * Ideal.ofBits .f32 0x3A000000#32) ?_
  refine Finset.sum_congr rfl fun j _ => ?_
  unfold contrib
  refine Finset.sum_congr rfl fun r _ => ?_
  refine congrArg (fun row => lnEntry row (V m c main_arg5 (ix1 q)) (V m c main_arg6 (ix1 q)) q) ?_
  funext k
  unfold xrow
  have hj := j.isLt
  have hr := r.isLt
  have e1 : (16 * b + j.val) / 16 = b := by omega
  have e2 : (16 * b + j.val) % 16 = j.val := by omega
  rw [dif_pos ⟨by rw [e1]; omega, by rw [e2]; omega⟩]
  congr 1
  funext a
  apply Fin.ext
  match a with
  | ⟨0, _⟩ => show 8 * ((16 * b + j.val) / 16) + p.val = 8 * b + p.val; rw [e1]
  | ⟨1, _⟩ => show 128 * ((16 * b + j.val) % 16) + r.val = 128 * j.val + r.val; rw [e2]
  | ⟨2, _⟩ => rfl

/-- WHAT A LAST TILE WRITES BACK is its block of the mean. -/
theorem flushed_eq (c : Dev nD) (t : Fin cfg0.N) (hf : (cfg0.win 3).flush t = true) :
    (dats m 0 c).flushed 3 t
      = ((cfg0.win 3).blk t).view.read (Elt Ideal) (meanArr (V m c main_arg0) (V m c main_arg5) (V m c main_arg6)) := by
  have h15 : t.val % 16 = 15 := (flush0_3 t).mp hf
  have hlt := lt32 t
  obtain ⟨e0, e1⟩ := idx3 t
  show (cfg0.win 3).cut (grid0.coords t) ((dats m 0 c).after 3 t) = _
  rw [after0_3]
  funext j
  have hj0 : (j 0).val < 8 := (j 0).isLt
  have hj1 : (j 1).val < 1024 := (j 1).isLt
  show (heldAfter m c t.val t.isLt).1 j
      = meanArr (V m c main_arg0) (V m c main_arg5) (V m c main_arg6) (((cfg0.win 3).blk t).view.emb j)
  refine ((congrArg (heldAfter m c t.val t.isLt).1 (eq_ix2 j)).trans (out_eq m c t h15 (j 0) (j 1))).trans ?_
  refine (block_mean m c (t.val / 16) (by omega) (j 0) (j 1)).trans ?_
  unfold meanArr
  refine congrArg₂ (meanAt (V m c main_arg0) (V m c main_arg5) (V m c main_arg6)) (Fin.ext ?_) (Fin.ext ?_)
  · show 8 * (t.val / 16) + (j 0).val = win0_3.index t (0 : Fin 2) * 8 + 1 * (j 0).val
    rw [e0]; omega
  · show (j 1).val = win0_3.index t (1 : Fin 2) * 1024 + 1 * (j 1).val
    rw [e1]; omega

/-- An index of the result is in point t's block iff each coordinate is in the block's range. -/
theorem mem_blk3 (t : Fin cfg0.N) (i : S16x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v0).slice (win0_3.rect t)).set ↔ _
  rw [View.set_slice_whole, Rect.mem_set_unit]
  exact Iff.rfl

/-- THE RESULT ARRAY after the region: the mean, everywhere — rows [8b, 8b+8) are written back at point 16b + 15. -/
theorem final3 (c : Dev nD) :
    (dats m 0 c).arrAt 3 cfg0.N = meanArr (V m c main_arg0) (V m c main_arg5) (V m c main_arg6) :=
  (dats m 0 c).arrAt_eq_of_cover 3 _ (flushed_eq m c) fun i => by
    have hi0 : (i 0).val < 16 := (i 0).isLt
    have hi1 : (i 1).val < 1024 := (i 1).isLt
    have hN : cfg0.N = 32 := N_0
    let t : Fin cfg0.N := ⟨16 * ((i 0).val / 8) + 15, by omega⟩
    have ht : t.val = 16 * ((i 0).val / 8) + 15 := rfl
    obtain ⟨e0, e1⟩ := idx3 t
    refine ⟨t, (flush0_3 t).mpr (by omega), ?_⟩
    rw [mem_blk3]
    intro a
    match a with
    | ⟨0, _⟩ => show win0_3.index t (0 : Fin 2) * 8 ≤ (i 0).val ∧ (i 0).val < win0_3.index t (0 : Fin 2) * 8 + 8
                rw [e0]; omega
    | ⟨1, _⟩ => show win0_3.index t (1 : Fin 2) * 1024 ≤ (i 1).val ∧ (i 1).val < win0_3.index t (1 : Fin 2) * 1024 + 1024
                rw [e1]; omega

end Cert.KernelIdeal.Mean

end
-- ==== Proof.RefRun.lean ====
/-
  The reference's run.

  The reference is host operations only: 131 of them, in order (the function the where-selection calls stands in its
  call's place). Listed as `ops`, @main is their sequence; every weakly fair execution terminates with each buffer at
  the fold of the operations' results over the launch contents. Each operation writes only its own result buffer, and
  the list `written` holds them all, so the thirteen arguments end as they began. The result buffer's contents are
  stated as that fold read at the result buffer (`res`).
-/
import proofs.«122109_j88742614270013_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 131 host operations, in program order (the where-selection's four stand in its call's place). -/
abbrev ops : List (HloOp τ sig (Elt F)) :=
  [ StableHlo.nullary main_cst (constant S_ .f32 0x00000000#32),
    StableHlo.binary main_arg0 main_cst main_v0 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    StableHlo.unary main_v0 main_v1 (broadcastInDim S16x2048x1 ![0, 1] bcast_S16x2048_S16x2048x1_0_1 : (⟨S16x2048, .f32⟩ : BufTy).Contents (Elt F) → (⟨S16x2048x1, .f32⟩ : BufTy).Contents (Elt F)),
    StableHlo.nullary main_cst_0 (constant S_ .f32 0x44800000#32),
    StableHlo.unary main_cst_0 main_v2 (broadcastInDim S16x2048x1 ![] bcast_S_S16x2048x1 : (⟨S_, .f32⟩ : BufTy).Contents (Elt F) → (⟨S16x2048x1, .f32⟩ : BufTy).Contents (Elt F)),
    StableHlo.binary main_v1 main_v2 main_v3 (Host.divf : (⟨S16x2048x1, .f32⟩ : BufTy).Contents (Elt F) → (⟨S16x2048x1, .f32⟩ : BufTy).Contents (Elt F) → (⟨S16x2048x1, .f32⟩ : BufTy).Contents (Elt F)),
    StableHlo.unary main_v3 main_v4 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    StableHlo.binary main_arg0 main_v4 main_v5 (subf : (⟨S16x2048x1024, .f32⟩ : BufTy).Contents (Elt F) → (⟨S16x2048x1024, .f32⟩ : BufTy).Contents (Elt F) → (⟨S16x2048x1024, .f32⟩ : BufTy).Contents (Elt F)),
    StableHlo.binary main_v5 main_v5 main_v6 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_cst_1 (constant S_ .f32 0x00000000#32),
    StableHlo.binary main_v6 main_cst_1 main_v7 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    StableHlo.unary main_v7 main_v8 (broadcastInDim S16x2048x1 ![0, 1] bcast_S16x2048_S16x2048x1_0_1 : (⟨S16x2048, .f32⟩ : BufTy).Contents (Elt F) → (⟨S16x2048x1, .f32⟩ : BufTy).Contents (Elt F)),
    StableHlo.nullary main_cst_2 (constant S_ .f32 0x44800000#32),
    StableHlo.unary main_cst_2 main_v9 (broadcastInDim S16x2048x1 ![] bcast_S_S16x2048x1 : (⟨S_, .f32⟩ : BufTy).Contents (Elt F) → (⟨S16x2048x1, .f32⟩ : BufTy).Contents (Elt F)),
    StableHlo.binary main_v8 main_v9 main_v10 (Host.divf : (⟨S16x2048x1, .f32⟩ : BufTy).Contents (Elt F) → (⟨S16x2048x1, .f32⟩ : BufTy).Contents (Elt F) → (⟨S16x2048x1, .f32⟩ : BufTy).Contents (Elt F)),
    StableHlo.unary main_v3 main_v11 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    StableHlo.binary main_arg0 main_v11 main_v12 (subf : (⟨S16x2048x1024, .f32⟩ : BufTy).Contents (Elt F) → (⟨S16x2048x1024, .f32⟩ : BufTy).Contents (Elt F) → (⟨S16x2048x1024, .f32⟩ : BufTy).Contents (Elt F)),
    StableHlo.nullary main_cst_3 (constant S_ .f32 0x3727C5AC#32),
    StableHlo.unary main_cst_3 main_v13 (broadcastInDim S16x2048x1 ![] bcast_S_S16x2048x1 : (⟨S_, .f32⟩ : BufTy).Contents (Elt F) → (⟨S16x2048x1, .f32⟩ : BufTy).Contents (Elt F)),
    StableHlo.binary main_v10 main_v13 main_v14 (addf : (⟨S16x2048x1, .f32⟩ : BufTy).Contents (Elt F) → (⟨S16x2048x1, .f32⟩ : BufTy).Contents (Elt F) → (⟨S16x2048x1, .f32⟩ : BufTy).Contents (Elt F)),
    StableHlo.unary main_v14 main_v15 (Host.rsqrt : (⟨S16x2048x1, .f32⟩ : BufTy).Contents (Elt F) → (⟨S16x2048x1, .f32⟩ : BufTy).Contents (Elt F)),
    StableHlo.unary main_v15 main_v16 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    StableHlo.binary main_v12 main_v16 main_v17 (mulf : (⟨S16x2048x1024, .f32⟩ : BufTy).Contents (Elt F) → (⟨S16x2048x1024, .f32⟩ : BufTy).Contents (Elt F) → (⟨S16x2048x1024, .f32⟩ : BufTy).Contents (Elt F)),
    StableHlo.unary main_arg5 main_v18 (broadcastInDim S1x1x1024 ![2] bcast_S1024_S1x1x1024_2 : (⟨S1024, .f32⟩ : BufTy).Contents (Elt F) → (⟨S1x1x1024, .f32⟩ : BufTy).Contents (Elt F)),
    StableHlo.unary main_v18 main_v19 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
    StableHlo.binary main_v17 main_v19 main_v20 (mulf : (⟨S16x2048x1024, .f32⟩ : BufTy).Contents (Elt F) → (⟨S16x2048x1024, .f32⟩ : BufTy).Contents (Elt F) → (⟨S16x2048x1024, .f32⟩ : BufTy).Contents (Elt F)),
    StableHlo.unary main_arg6 main_v21 (broadcastInDim S1x1x1024 ![2] bcast_S1024_S1x1x1024_2 : (⟨S1024, .f32⟩ : BufTy).Contents (Elt F) → (⟨S1x1x1024, .f32⟩ : BufTy).Contents (Elt F)),
    StableHlo.unary main_v21 main_v22 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
    StableHlo.binary main_v20 main_v22 main_v23 (addf : (⟨S16x2048x1024, .f32⟩ : BufTy).Contents (Elt F) → (⟨S16x2048x1024, .f32⟩ : BufTy).Contents (Elt F) → (⟨S16x2048x1024, .f32⟩ : BufTy).Contents (Elt F)),
    StableHlo.nullary main_cst_4 (constant S_ .f32 0x00000000#32),
    StableHlo.binary main_v23 main_cst_4 main_v24 ((fun x v => Host.reduceAdd x v reducesTo_S16x2048x1024_S16x1024_d1 h_S_) : (⟨S16x2048x1024, .f32⟩ : BufTy).Contents (Elt F) → (⟨S_, .f32⟩ : BufTy).Contents (Elt F) → (⟨S16x1024, .f32⟩ : BufTy).Contents (Elt F)),
    StableHlo.nullary main_cst_5 (constant S_ .f32 0x45000000#32),
    StableHlo.unary main_cst_5 main_v25 (broadcastInDim S16x1024 ![] bcast_S_S16x1024 : (⟨S_, .f32⟩ : BufTy).Contents (Elt F) → (⟨S16x1024, .f32⟩ : BufTy).Contents (Elt F)),
    StableHlo.binary main_v24 main_v25 main_v26 (Host.divf : (⟨S16x1024, .f32⟩ : BufTy).Contents (Elt F) → (⟨S16x1024, .f32⟩ : BufTy).Contents (Elt F) → (⟨S16x1024, .f32⟩ : BufTy).Contents (Elt F)),
    StableHlo.nullary main_c (constantI S_ 32 0#32),
    StableHlo.binary main_arg12 main_c main_v27 (cmpi .slt : (⟨S_, .i32⟩ : BufTy).Contents (Elt F) → (⟨S_, .i32⟩ : BufTy).Contents (Elt F) → (⟨S_, .i1⟩ : BufTy).Contents (Elt F)),
    StableHlo.nullary main_c_6 (constantI S_ 32 32#32),
    StableHlo.binary main_arg12 main_c_6 main_v28 (addi : (⟨S_, .i32⟩ : BufTy).Contents (Elt F) → (⟨S_, .i32⟩ : BufTy).Contents (Elt F) → (⟨S_, .i32⟩ : BufTy).Contents (Elt F)),
    StableHlo.ternary main_v27 main_v28 main_arg12 main_v29 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_7 (constantI S_ 32 0#32),
    StableHlo.nullary main_c_8 (constantI S_ 32 0#32),
    StableHlo.binary main_c_7 main_c_8 main_v30 (cmpi .slt : (⟨S_, .i32⟩ : BufTy).Contents (Elt F) → (⟨S_, .i32⟩ : BufTy).Contents (Elt F) → (⟨S_, .i1⟩ : BufTy).Contents (Elt F)),
    StableHlo.nullary main_c_9 (constantI S_ 32 0#32),
    StableHlo.nullary main_c_10 (constantI S_ 32 1024#32),
    StableHlo.binary main_c_9 main_c_10 main_v31 (addi : (⟨S_, .i32⟩ : BufTy).Contents (Elt F) → (⟨S_, .i32⟩ : BufTy).Contents (Elt F) → (⟨S_, .i32⟩ : BufTy).Contents (Elt F)),
    StableHlo.nullary main_c_11 (constantI S_ 32 0#32),
    StableHlo.ternary main_v30 main_v31 main_c_11 main_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg1 ![main_v29, main_v32] ⟨S_, .i32⟩ main_v33 ((fun x i => Host.dynamicSlice S1x1024 x (fun k => (i k (Shape.Idx.first h_S_)).toInt) sliceFits_S32x1024_S1x1024) : (⟨S32x1024, .f32⟩ : BufTy).Contents (Elt F) → (Fin 2 → (⟨S_, .i32⟩ : BufTy).Contents (Elt F)) → (⟨S1x1024, .f32⟩ : BufTy).Contents (Elt F)),
    StableHlo.reshape main_v33 main_v34 rfl shapeCasts_S1x1024_S1024,
    StableHlo.unary main_v34 main_v35 (broadcastInDim S1x1024 ![1] bcast_S1024_S1x1024_1 : (⟨S1024, .f32⟩ : BufTy).Contents (Elt F) → (⟨S1x1024, .f32⟩ : BufTy).Contents (Elt F)),
    StableHlo.unary main_v35 main_v36 (broadcastInDim S16x1024 ![0, 1] bcast_S1x1024_S16x1024_0_1 : (⟨S1x1024, .f32⟩ : BufTy).Contents (Elt F) → (⟨S16x1024, .f32⟩ : BufTy).Contents (Elt F)),
    StableHlo.binary main_v36 main_v26 main_v37 (addf : (⟨S16x1024, .f32⟩ : BufTy).Contents (Elt F) → (⟨S16x1024, .f32⟩ : BufTy).Contents (Elt F) → (⟨S16x1024, .f32⟩ : BufTy).Contents (Elt F)),
    StableHlo.binary main_arg1 main_arg2 main_v38 (addf : (⟨S32x1024, .f32⟩ : BufTy).Contents (Elt F) → (⟨S32x1024, .f32⟩ : BufTy).Contents (Elt F) → (⟨S32x1024, .f32⟩ : BufTy).Contents (Elt F)),
    StableHlo.unary main_arg7 main_v39 ((transpose S1024x1024 [1, 0] · transposes_S1024x1024_S1024x1024_1_0) : (⟨S1024x1024, .f32⟩ : BufTy).Contents (Elt F) → (⟨S1024x1024, .f32⟩ : BufTy).Contents (Elt F)),
    StableHlo.binary main_v37 main_v39 main_v40 ((fun l r => Host.dotGeneral dot_S16x1024_S1024x1024_S16x1024_1_0_0_1_n_n none l r) : (⟨S16x1024, .f32⟩ : BufTy).Contents (Elt F) → (⟨S1024x1024, .f32⟩ : BufTy).Contents (Elt F) → (⟨S16x1024, .f32⟩ : BufTy).Contents (Elt F)),
    StableHlo.unary main_arg8 main_v41 (broadcastInDim S1x1024 ![1] bcast_S1024_S1x1024_1 : (⟨S1024, .f32⟩ : BufTy).Contents (Elt F) → (⟨S1x1024, .f32⟩ : BufTy).Contents (Elt F)),
    StableHlo.unary main_v41 main_v42 (broadcastInDim S16x1024 ![0, 1] bcast_S1x1024_S16x1024_0_1 : (⟨S1x1024, .f32⟩ : BufTy).Contents (Elt F) → (⟨S16x1024, .f32⟩ : BufTy).Contents (Elt F)),
    StableHlo.binary main_v40 main_v42 main_v43 (addf : (⟨S16x1024, .f32⟩ : BufTy).Contents (Elt F) → (⟨S16x1024, .f32⟩ : BufTy).Contents (Elt F) → (⟨S16x1024, .f32⟩ : BufTy).Contents (Elt F)),
    StableHlo.unary main_arg9 main_v44 ((transpose S1024x1024 [1, 0] · transposes_S1024x1024_S1024x1024_1_0) : (⟨S1024x1024, .f32⟩ : BufTy).Contents (Elt F) → (⟨S1024x1024, .f32⟩ : BufTy).Contents (Elt F)),
    StableHlo.binary main_v38 main_v44 main_v45 ((fun l r => Host.dotGeneral dot_S32x1024_S1024x1024_S32x1024_1_0_0_1_n_n none l r) : (⟨S32x1024, .f32⟩ : BufTy).Contents (Elt F) → (⟨S1024x1024, .f32⟩ : BufTy).Contents (Elt F) → (⟨S32x1024, .f32⟩ : BufTy).Contents (Elt F)),
    StableHlo.unary main_arg10 main_v46 (broadcastInDim S1x1024 ![1] bcast_S1024_S1x1024_1 : (⟨S1024, .f32⟩ : BufTy).Contents (Elt F) → (⟨S1x1024, .f32⟩ : BufTy).Contents (Elt F)),
    StableHlo.unary main_v46 main_v47 (broadcastInDim S32x1024 ![0, 1] bcast_S1x1024_S32x1024_0_1 : (⟨S1x1024, .f32⟩ : BufTy).Contents (Elt F) → (⟨S32x1024, .f32⟩ : BufTy).Contents (Elt F)),
    StableHlo.binary main_v45 main_v47 main_v48 (addf : (⟨S32x1024, .f32⟩ : BufTy).Contents (Elt F) → (⟨S32x1024, .f32⟩ : BufTy).Contents (Elt F) → (⟨S32x1024, .f32⟩ : BufTy).Contents (Elt F)),
    StableHlo.unary main_v48 main_v49 ((transpose S1024x32 [1, 0] · transposes_S32x1024_S1024x32_1_0) : (⟨S32x1024, .f32⟩ : BufTy).Contents (Elt F) → (⟨S1024x32, .f32⟩ : BufTy).Contents (Elt F)),
    StableHlo.binary main_v43 main_v49 main_v50 ((fun l r => Host.dotGeneral dot_S16x1024_S1024x32_S16x32_1_0_0_1_n_n none l r) : (⟨S16x1024, .f32⟩ : BufTy).Contents (Elt F) → (⟨S1024x32, .f32⟩ : BufTy).Contents (Elt F) → (⟨S16x32, .f32⟩ : BufTy).Contents (Elt F)),
    StableHlo.nullary main_cst_12 (constant S_ .f32 0x44800000#32),
    StableHlo.unary main_cst_12 main_v51 (Host.sqrt : (⟨S_, .f32⟩ : BufTy).Contents (Elt F) → (⟨S_, .f32⟩ : BufTy).Contents (Elt F)),
    StableHlo.unary main_v51 main_v52 (broadcastInDim S16x32 ![] bcast_S_S16x32 : (⟨S_, .f32⟩ : BufTy).Contents (Elt F) → (⟨S16x32, .f32⟩ : BufTy).Contents (Elt F)),
    StableHlo.binary main_v50 main_v52 main_v53 (Host.divf : (⟨S16x32, .f32⟩ : BufTy).Contents (Elt F) → (⟨S16x32, .f32⟩ : BufTy).Contents (Elt F) → (⟨S16x32, .f32⟩ : BufTy).Contents (Elt F)),
    StableHlo.nullary main_v54 (iotaInDim S32 32 0),
    StableHlo.unary main_arg12 main_v55 (broadcastInDim S32 ![] bcast_S_S32 : (⟨S_, .i32⟩ : BufTy).Contents (Elt F) → (⟨S32, .i32⟩ : BufTy).Contents (Elt F)),
    StableHlo.binary main_v54 main_v55 main_v56 (subi : (⟨S32, .i32⟩ : BufTy).Contents (Elt F) → (⟨S32, .i32⟩ : BufTy).Contents (Elt F) → (⟨S32, .i32⟩ : BufTy).Contents (Elt F)),
    StableHlo.unary main_v56 main_v57 (absi : (⟨S32, .i32⟩ : BufTy).Contents (Elt F) → (⟨S32, .i32⟩ : BufTy).Contents (Elt F)),
    StableHlo.nullary main_c_13 (constantI S_ 32 0#32),
    StableHlo.unary main_c_13 main_v58 (broadcastInDim S32 ![] bcast_S_S32 : (⟨S_, .i32⟩ : BufTy).Contents (Elt F) → (⟨S32, .i32⟩ : BufTy).Contents (Elt F)),
    StableHlo.binary main_v57 main_v58 main_v59 (cmpi .slt : (⟨S32, .i32⟩ : BufTy).Contents (Elt F) → (⟨S32, .i32⟩ : BufTy).Contents (Elt F) → (⟨S32, .i1⟩ : BufTy).Contents (Elt F)),
    StableHlo.nullary main_c_14 (constantI S_ 32 33#32),
    StableHlo.unary main_c_14 main_v60 (broadcastInDim S32 ![] bcast_S_S32 : (⟨S_, .i32⟩ : BufTy).Contents (Elt F) → (⟨S32, .i32⟩ : BufTy).Contents (Elt F)),
    StableHlo.binary main_v57 main_v60 main_v61 (addi : (⟨S32, .i32⟩ : BufTy).Contents (Elt F) → (⟨S32, .i32⟩ : BufTy).Contents (Elt F) → (⟨S32, .i32⟩ : BufTy).Contents (Elt F)),
    StableHlo.ternary main_v59 main_v61 main_v57 main_v62 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_15 (constantI S_ 32 0#32),
    StableHlo.unary main_c_15 main_v63 (broadcastInDim S32 ![] bcast_S_S32 : (⟨S_, .i32⟩ : BufTy).Contents (Elt F) → (⟨S32, .i32⟩ : BufTy).Contents (Elt F)),
    StableHlo.unary main_v63 main_v64 (id : (⟨S32, .i32⟩ : BufTy).Contents (Elt F) → (⟨S32, .i32⟩ : BufTy).Contents (Elt F)),
    StableHlo.unary main_v62 main_v65 (broadcastInDim S32x1 ![0] bcast_S32_S32x1_0 : (⟨S32, .i32⟩ : BufTy).Contents (Elt F) → (⟨S32x1, .i32⟩ : BufTy).Contents (Elt F)),
    StableHlo.unary main_v64 main_v66 (broadcastInDim S32x1 ![0] bcast_S32_S32x1_0 : (⟨S32, .i32⟩ : BufTy).Contents (Elt F) → (⟨S32x1, .i32⟩ : BufTy).Contents (Elt F)),
    StableHlo.binary main_v65 main_v66 main_v67 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.binary main_arg3 main_v67 main_v68 ((fun x i => Host.gather gather_S33x1_S32x2_S32_n_01_n_n_01_1_11 x i) : (⟨S33x1, .f32⟩ : BufTy).Contents (Elt F) → (⟨S32x2, .i32⟩ : BufTy).Contents (Elt F) → (⟨S32, .f32⟩ : BufTy).Contents (Elt F)),
    StableHlo.unary main_v68 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S16x32 ![0, 1] bcast_S1x32_S16x32_0_1 : (⟨S1x32, .f32⟩ : BufTy).Contents (Elt F) → (⟨S16x32, .f32⟩ : BufTy).Contents (Elt F)),
    StableHlo.binary main_v53 main_v70 main_v71 (addf : (⟨S16x32, .f32⟩ : BufTy).Contents (Elt F) → (⟨S16x32, .f32⟩ : BufTy).Contents (Elt F) → (⟨S16x32, .f32⟩ : BufTy).Contents (Elt F)),
    StableHlo.unary main_arg4 main_v72 ((transpose S256x32 [1, 0] · transposes_S32x256_S256x32_1_0) : (⟨S32x256, .f32⟩ : BufTy).Contents (Elt F) → (⟨S256x32, .f32⟩ : BufTy).Contents (Elt F)),
    StableHlo.binary main_arg4 main_v72 main_v73 ((fun l r => Host.dotGeneral dot_S32x256_S256x32_S32x32_1_0_0_1_n_n none l r) : (⟨S32x256, .f32⟩ : BufTy).Contents (Elt F) → (⟨S256x32, .f32⟩ : BufTy).Contents (Elt F) → (⟨S32x32, .f32⟩ : BufTy).Contents (Elt F)),
    StableHlo.nullary main_c_16 (constantI S_ 32 0#32),
    StableHlo.unary main_c_16 main_v74 (broadcastInDim S32 ![] bcast_S_S32 : (⟨S_, .i32⟩ : BufTy).Contents (Elt F) → (⟨S32, .i32⟩ : BufTy).Contents (Elt F)),
    StableHlo.binary main_arg11 main_v74 main_v75 (cmpi .sgt : (⟨S32, .i32⟩ : BufTy).Contents (Elt F) → (⟨S32, .i32⟩ : BufTy).Contents (Elt F) → (⟨S32, .i1⟩ : BufTy).Contents (Elt F)),
    StableHlo.nullary main_v76 (iotaInDim S32 32 0),
    StableHlo.unary main_arg12 main_v77 (broadcastInDim S32 ![] bcast_S_S32 : (⟨S_, .i32⟩ : BufTy).Contents (Elt F) → (⟨S32, .i32⟩ : BufTy).Contents (Elt F)),
    StableHlo.binary main_v76 main_v77 main_v78 (cmpi .ne : (⟨S32, .i32⟩ : BufTy).Contents (Elt F) → (⟨S32, .i32⟩ : BufTy).Contents (Elt F) → (⟨S32, .i1⟩ : BufTy).Contents (Elt F)),
    StableHlo.binary main_v75 main_v78 main_v79 (andi : (⟨S32, .i1⟩ : BufTy).Contents (Elt F) → (⟨S32, .i1⟩ : BufTy).Contents (Elt F) → (⟨S32, .i1⟩ : BufTy).Contents (Elt F)),
    StableHlo.nullary main_c_17 (constantI S_ 32 1#32),
    StableHlo.unary main_c_17 main_v80 (broadcastInDim S32 ![] bcast_S_S32 : (⟨S_, .i32⟩ : BufTy).Contents (Elt F) → (⟨S32, .i32⟩ : BufTy).Contents (Elt F)),
    StableHlo.binary main_v57 main_v80 main_v81 (maxsi : (⟨S32, .i32⟩ : BufTy).Contents (Elt F) → (⟨S32, .i32⟩ : BufTy).Contents (Elt F) → (⟨S32, .i32⟩ : BufTy).Contents (Elt F)),
    StableHlo.unary main_v81 main_v82 (sitofp .f32 : (⟨S32, .i32⟩ : BufTy).Contents (Elt F) → (⟨S32, .f32⟩ : BufTy).Contents (Elt F)),
    StableHlo.unary main_v79 main_v83 (broadcastInDim S32x1 ![0] bcast_S32_S32x1_0 : (⟨S32, .i1⟩ : BufTy).Contents (Elt F) → (⟨S32x1, .i1⟩ : BufTy).Contents (Elt F)),
    StableHlo.unary main_v82 main_v84 (broadcastInDim S32x1 ![0] bcast_S32_S32x1_0 : (⟨S32, .f32⟩ : BufTy).Contents (Elt F) → (⟨S32x1, .f32⟩ : BufTy).Contents (Elt F)),
    StableHlo.unary main_v84 main_v85 (broadcastInDim S32x32 ![0, 1] bcast_S32x1_S32x32_0_1 : (⟨S32x1, .f32⟩ : BufTy).Contents (Elt F) → (⟨S32x32, .f32⟩ : BufTy).Contents (Elt F)),
    StableHlo.binary main_v73 main_v85 main_v86 (Host.divf : (⟨S32x32, .f32⟩ : BufTy).Contents (Elt F) → (⟨S32x32, .f32⟩ : BufTy).Contents (Elt F) → (⟨S32x32, .f32⟩ : BufTy).Contents (Elt F)),
    StableHlo.nullary main_cst_18 (constant S_ .f32 0x00000000#32),
    StableHlo.TRef.unary (.of main_cst_18 : StableHlo.TRef sig ⟨S_, .f32⟩) (.of main_call0_v0 : StableHlo.TRef sig ⟨S_, .f32⟩) id,
    StableHlo.TRef.unary (.of main_v83 : StableHlo.TRef sig ⟨S32x1, .i1⟩) (.of main_call0_v1 : StableHlo.TRef sig ⟨S32x32, .i1⟩) (broadcastInDim S32x32 ![0, 1] bcast_S32x1_S32x32_0_1),
    StableHlo.TRef.unary (.of main_call0_v0 : StableHlo.TRef sig ⟨S_, .f32⟩) (.of main_call0_v2 : StableHlo.TRef sig ⟨S32x32, .f32⟩) (broadcastInDim S32x32 ![] bcast_S_S32x32),
    StableHlo.TRef.ternary (.of main_call0_v1 : StableHlo.TRef sig ⟨S32x32, .i1⟩) (.of main_v86 : StableHlo.TRef sig ⟨S32x32, .f32⟩) (.of main_call0_v2 : StableHlo.TRef sig ⟨S32x32, .f32⟩) (.of main_v87 : StableHlo.TRef sig ⟨S32x32, .f32⟩) select,
    StableHlo.nullary main_cst_19 (constant S_ .f32 0x00000000#32),
    StableHlo.binary main_v87 main_cst_19 main_v88 ((fun x v => Host.reduceAdd x v reducesTo_S32x32_S32_d0 h_S_) : (⟨S32x32, .f32⟩ : BufTy).Contents (Elt F) → (⟨S_, .f32⟩ : BufTy).Contents (Elt F) → (⟨S32, .f32⟩ : BufTy).Contents (Elt F)),
    StableHlo.unary main_v88 main_v89 (broadcastInDim S1x32 ![1] bcast_S32_S1x32_1 : (⟨S32, .f32⟩ : BufTy).Contents (Elt F) → (⟨S1x32, .f32⟩ : BufTy).Contents (Elt F)),
    StableHlo.unary main_v89 main_v90 (broadcastInDim S16x32 ![0, 1] bcast_S1x32_S16x32_0_1 : (⟨S1x32, .f32⟩ : BufTy).Contents (Elt F) → (⟨S16x32, .f32⟩ : BufTy).Contents (Elt F)),
    StableHlo.binary main_v71 main_v90 main_v91 (addf : (⟨S16x32, .f32⟩ : BufTy).Contents (Elt F) → (⟨S16x32, .f32⟩ : BufTy).Contents (Elt F) → (⟨S16x32, .f32⟩ : BufTy).Contents (Elt F)),
    StableHlo.nullary main_cst_20 (constant S_ .f32 0xFF800000#32),
    StableHlo.binary main_v91 main_cst_20 main_v92 ((fun x v => Host.reduce FloatOps.maximumf x v reducesTo_S16x32_S16_d1 h_S_) : (⟨S16x32, .f32⟩ : BufTy).Contents (Elt F) → (⟨S_, .f32⟩ : BufTy).Contents (Elt F) → (⟨S16, .f32⟩ : BufTy).Contents (Elt F)),
    StableHlo.nullary main_cst_21 (constant S_ .f32 0xFF800000#32),
    StableHlo.unary main_cst_21 main_v93 (broadcastInDim S16 ![] bcast_S_S16 : (⟨S_, .f32⟩ : BufTy).Contents (Elt F) → (⟨S16, .f32⟩ : BufTy).Contents (Elt F)),
    StableHlo.binary main_v93 main_v92 main_v94 (maximumf : (⟨S16, .f32⟩ : BufTy).Contents (Elt F) → (⟨S16, .f32⟩ : BufTy).Contents (Elt F) → (⟨S16, .f32⟩ : BufTy).Contents (Elt F)),
    StableHlo.unary main_v94 main_v95 (broadcastInDim S16x1 ![0] bcast_S16_S16x1_0 : (⟨S16, .f32⟩ : BufTy).Contents (Elt F) → (⟨S16x1, .f32⟩ : BufTy).Contents (Elt F)),
    StableHlo.unary main_v95 main_v96 (broadcastInDim S16x32 ![0, 1] bcast_S16x1_S16x32_0_1 : (⟨S16x1, .f32⟩ : BufTy).Contents (Elt F) → (⟨S16x32, .f32⟩ : BufTy).Contents (Elt F)),
    StableHlo.binary main_v91 main_v96 main_v97 (subf : (⟨S16x32, .f32⟩ : BufTy).Contents (Elt F) → (⟨S16x32, .f32⟩ : BufTy).Contents (Elt F) → (⟨S16x32, .f32⟩ : BufTy).Contents (Elt F)),
    StableHlo.unary main_v97 main_v98 (Host.exp : (⟨S16x32, .f32⟩ : BufTy).Contents (Elt F) → (⟨S16x32, .f32⟩ : BufTy).Contents (Elt F)),
    StableHlo.nullary main_cst_22 (constant S_ .f32 0x00000000#32),
    StableHlo.binary main_v98 main_cst_22 main_v99 ((fun x v => Host.reduceAdd x v reducesTo_S16x32_S16_d1 h_S_) : (⟨S16x32, .f32⟩ : BufTy).Contents (Elt F) → (⟨S_, .f32⟩ : BufTy).Contents (Elt F) → (⟨S16, .f32⟩ : BufTy).Contents (Elt F)),
    StableHlo.unary main_v99 main_v100 (broadcastInDim S16x1 ![0] bcast_S16_S16x1_0 : (⟨S16, .f32⟩ : BufTy).Contents (Elt F) → (⟨S16x1, .f32⟩ : BufTy).Contents (Elt F)),
    StableHlo.unary main_v100 main_v101 (broadcastInDim S16x32 ![0, 1] bcast_S16x1_S16x32_0_1 : (⟨S16x1, .f32⟩ : BufTy).Contents (Elt F) → (⟨S16x32, .f32⟩ : BufTy).Contents (Elt F)),
    StableHlo.binary main_v98 main_v101 main_v102 (Host.divf : (⟨S16x32, .f32⟩ : BufTy).Contents (Elt F) → (⟨S16x32, .f32⟩ : BufTy).Contents (Elt F) → (⟨S16x32, .f32⟩ : BufTy).Contents (Elt F)) ]

/-- @main is their sequence. -/
theorem main_eq (c : Dev nD) : main (F := F) c = seq ops := rfl
/-- The reference scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Every buffer an operation writes: the results of the 131 operations. -/
def written : List (Ref sig .tc) :=
  [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23, main_cst_4, main_v24, main_cst_5, main_v25, main_v26, main_c, main_v27, main_c_6, main_v28, main_v29, main_c_7, main_c_8, main_v30, main_c_9, main_c_10, main_v31, main_c_11, main_v32, main_v33, main_v34, main_v35, main_v36, main_v37, main_v38, main_v39, main_v40, main_v41, main_v42, main_v43, main_v44, main_v45, main_v46, main_v47, main_v48, main_v49, main_v50, main_cst_12, main_v51, main_v52, main_v53, main_v54, main_v55, main_v56, main_v57, main_c_13, main_v58, main_v59, main_c_14, main_v60, main_v61, main_v62, main_c_15, main_v63, main_v64, main_v65, main_v66, main_v67, main_v68, main_v69, main_v70, main_v71, main_v72, main_v73, main_c_16, main_v74, main_v75, main_v76, main_v77, main_v78, main_v79, main_c_17, main_v80, main_v81, main_v82, main_v83, main_v84, main_v85, main_v86, main_cst_18, main_call0_v0, main_call0_v1, main_call0_v2, main_v87, main_cst_19, main_v88, main_v89, main_v90, main_v91, main_cst_20, main_v92, main_cst_21, main_v93, main_v94, main_v95, main_v96, main_v97, main_v98, main_cst_22, main_v99, main_v100, main_v101, main_v102]

set_option maxRecDepth 8192 in
/-- Each operation writes only its own result, which `written` lists. -/
theorem ops_writes : (ops : List (HloOp τ sig (Elt F))).Forall fun op =>
    op.writes ⊆ (written.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.unaryIndexed_writes]
    exact Finset.singleton_subset_iff.mpr (List.mem_toFinset.mpr (List.mem_map.mpr ⟨_, by decide, rfl⟩))

/-- A buffer outside `written` keeps its contents through any prefix of the operations. -/
theorem kept_take (V : Valuation τ sig (Elt F)) (r : Ref sig .tc) (hr : r ∉ written) (k : ℕ) :
    StableHlo.after ((ops (F := F)).take k) V (Proc.devRef .tc r) = V (Proc.devRef .tc r) :=
  StableHlo.after_of_forall_not_mem _ _ fun op hop hb => by
    have hsub := (List.forall_iff_forall_mem.mp (ops_writes (F := F))) op (List.mem_of_mem_take hop)
    obtain ⟨y, hy, he⟩ := List.mem_map.mp (List.mem_toFinset.mp (hsub hb))
    exact hr (Proc.devRef_injective _ he ▸ hy)

/-- and through all of them. -/
theorem kept (V : Valuation τ sig (Elt F)) (r : Ref sig .tc) (hr : r ∉ written) :
    StableHlo.after (ops (F := F)) V (Proc.devRef .tc r) = V (Proc.devRef .tc r) :=
  StableHlo.after_of_writes_sub ops V ops_writes hr

/-- The result buffer's contents after the run: the fold of the operations over the launch contents, read there. -/
def res (m : (ℓ : Loc nD τ sig) → Buf (Elt F) ℓ) (c : Dev nD) : Buf (Elt F) ((c.tc : Thread nD τ).loc main_v102) :=
  StableHlo.after (ops (F := F)) (fun b => m (c, b)) (Proc.devRef .tc main_v102)

/-- Every weakly fair execution of the reference terminates with the result at `res` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v102,
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide)),
      (h c main_arg12).trans (kept _ main_arg12 (by decide))⟩)
    (run_seq scopedRefs_eq scopedSems_eq defs main (fun _ => ops) main_eq (fun _ => ops_sub) m ρ)

end Cert.ReferenceIdeal.HandRun

end
-- ==== Proof.RefMean.lean ====
/-
  The reference's mean of the normalised hidden states, read at one index.

  The reference's first 34 host operations compute, for every row (b, s) of 1024 entries: the row's mean (the host's sum of
  the row, from the zero word, divided by the word for 1024) kept as a column, the centred entries, the row's variance the
  same way, the reciprocal square root of the variance plus ε, the normalised entry scaled by the column's weight and
  shifted by the column's bias; then the sum over the 2048 positions s of batch row b, divided by the word for 2048. Each
  broadcast reads its operand at the index with the broadcast axis dropped or at the unit axis's one coordinate; the host's
  sum is the initial value plus the sum over the reduced coordinate, and the zero word denotes 0. Put together, the value
  at (b, h) is the specification's mean.
-/
import proofs.«122109_j88742614270013_1_alg».proof.Proof.RefRun
import proofs.«122109_j88742614270013_1_alg».proof.Proof.LnSpec
import Idealize.ShloMosaic.Lib.Pipeline.Value
import Idealize.ShloMosaic.Lib.ValueIdx
import Idealize.ShloMosaic.PureOps.Ideal.Laws

noncomputable section

namespace Cert.ReferenceIdeal.RefMean

open Cert.ReferenceIdeal Cert.ReferenceIdeal.Gen Idealize.ShloMosaic Idealize.ShloMosaic.TcCoe Idealize.SL.Sem Idealize.ShloMosaic.StableHlo
open Idealize.ShloMosaic.ValueIdx Cert.LnSpec

/-- The one coordinate of an axis of size one. -/
abbrev u : Fin 1 := ⟨0, Nat.one_pos⟩

/-! ## The layout steps, read at an index -/

/-- A scalar word broadcast to any shape reads as the word. -/
theorem splat_apply (S : Shape) (h : S_.BroadcastsInDim S (![] : Fin 0 → Fin S.rank)) (w : BitVec 32) (j : S.Idx) :
    broadcastInDim S ![] h (constant (F := Ideal) S_ .f32 w) j = Ideal.ofBits .f32 w :=
  (broadcastInDim_apply _ h _ j ix0 (fun a => a.elim0)).trans rfl

/-- [16, 2048] → [16, 2048, 1]: the entry at (b, s, 0) is the operand's at (b, s). -/
theorem keep_apply (x : FVec Ideal S16x2048 .f32) (b : Fin 16) (s : Fin 2048) :
    broadcastInDim S16x2048x1 ![0, 1] bcast_S16x2048_S16x2048x1_0_1 x (ix3 b s u) = x (ix2 b s) :=
  broadcastInDim_apply _ _ x _ _ (fun a => by
    match a with
    | ⟨0, _⟩ => show b.val = if (16 : ℕ) = 1 then 0 else b.val; rw [if_neg (by decide)]
    | ⟨1, _⟩ => show s.val = if (2048 : ℕ) = 1 then 0 else s.val; rw [if_neg (by decide)])

/-- [16, 2048, 1] → [16, 2048, 1024]: the entry at (b, s, k) is the operand's at (b, s, 0). -/
theorem spread_apply (x : FVec Ideal S16x2048x1 .f32) (b : Fin 16) (s : Fin 2048) (k : Fin 1024) :
    broadcastInDim S16x2048x1024 ![0, 1, 2] bcast_S16x2048x1_S16x2048x1024_0_1_2 x (ix3 b s k) = x (ix3 b s u) :=
  broadcastInDim_apply _ _ x _ _ (fun a => by
    match a with
    | ⟨0, _⟩ => show b.val = if (16 : ℕ) = 1 then 0 else b.val; rw [if_neg (by decide)]
    | ⟨1, _⟩ => show s.val = if (2048 : ℕ) = 1 then 0 else s.val; rw [if_neg (by decide)]
    | ⟨2, _⟩ => show (0 : ℕ) = if (1 : ℕ) = 1 then 0 else k.val; rw [if_pos rfl])

/-- [1024] → [1, 1, 1024] → [16, 2048, 1024]: the entry at (b, s, k) is the vector's at k. -/
theorem column_apply (x : FVec Ideal S1024 .f32) (b : Fin 16) (s : Fin 2048) (k : Fin 1024) :
    broadcastInDim S16x2048x1024 ![0, 1, 2] bcast_S1x1x1024_S16x2048x1024_0_1_2
        (broadcastInDim S1x1x1024 ![2] bcast_S1024_S1x1x1024_2 x) (ix3 b s k) = x (ix1 k) := by
  refine (broadcastInDim_apply _ _ _ _ (ix3 u u k) (fun a => by
    match a with
    | ⟨0, _⟩ => show (0 : ℕ) = if (1 : ℕ) = 1 then 0 else b.val; rw [if_pos rfl]
    | ⟨1, _⟩ => show (0 : ℕ) = if (1 : ℕ) = 1 then 0 else s.val; rw [if_pos rfl]
    | ⟨2, _⟩ => show k.val = if (1024 : ℕ) = 1 then 0 else k.val; rw [if_neg (by decide)])).trans ?_
  exact broadcastInDim_apply _ _ x _ _ (fun a => by
    match a with
    | ⟨0, _⟩ => show k.val = if (1024 : ℕ) = 1 then 0 else k.val; rw [if_neg (by decide)])

/-- The host's sum along the feature axis, from the zero word: at (b, s) the sum over k of the entries (b, s, k). -/
theorem sumLast_apply (x : FVec Ideal S16x2048x1024 .f32) (b : Fin 16) (s : Fin 2048) :
    Host.reduceAdd x (constant (F := Ideal) S_ .f32 0x00000000#32) reducesTo_S16x2048x1024_S16x2048_d2 h_S_ (ix2 b s)
      = ∑ k : Fin 1024, x (ix3 b s k) := by
  simp only [Host.reduceAdd, Ideal.hostReduceAdd_def]
  rw [Ideal.hostReduceAdd_single reducesTo_S16x2048x1024_S16x2048_d2 (by decide)]
  rw [constant_apply, Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The host's sum along the sequence axis, from the zero word: at (b, h) the sum over s of the entries (b, s, h). -/
theorem sumMiddle_apply (x : FVec Ideal S16x2048x1024 .f32) (b : Fin 16) (h : Fin 1024) :
    Host.reduceAdd x (constant (F := Ideal) S_ .f32 0x00000000#32) reducesTo_S16x2048x1024_S16x1024_d1 h_S_ (ix2 b h)
      = ∑ s : Fin 2048, x (ix3 b s h) := by
  simp only [Host.reduceAdd, Ideal.hostReduceAdd_def]
  rw [Ideal.hostReduceAdd_single reducesTo_S16x2048x1024_S16x1024_d1 (by decide)]
  rw [constant_apply, Ideal.ofBits_zero_f32, zero_add]
  refine Finset.sum_congr rfl fun s _ => congrArg x (funext fun a => Fin.ext ?_)
  match a with
  | ⟨0, _⟩ => rfl
  | ⟨1, _⟩ => rfl
  | ⟨2, _⟩ => rfl

/-! ## The stages -/

/-- The sum along the feature axis divided by the word for 1024, kept as a column. -/
def hostCol (v : FVec Ideal S16x2048x1024 .f32) : FVec Ideal S16x2048x1 .f32 :=
  Host.divf (broadcastInDim S16x2048x1 ![0, 1] bcast_S16x2048_S16x2048x1_0_1
      (Host.reduceAdd v (constant S_ .f32 0x00000000#32) reducesTo_S16x2048x1024_S16x2048_d2 h_S_))
    (broadcastInDim S16x2048x1 ![] bcast_S_S16x2048x1 (constant S_ .f32 0x44800000#32))

theorem hostCol_apply (v : FVec Ideal S16x2048x1024 .f32) (b : Fin 16) (s : Fin 2048) :
    hostCol v (ix3 b s u) = Ideal.div (∑ k : Fin 1024, v (ix3 b s k)) (Ideal.ofBits .f32 0x44800000#32) := by
  unfold hostCol
  show Ideal.div _ _ = _
  exact congrArg₂ Ideal.div ((keep_apply _ b s).trans (sumLast_apply v b s)) (splat_apply _ _ _ _)

/-- The hidden states less their row means. -/
def hostCentered (v : FVec Ideal S16x2048x1024 .f32) : FVec Ideal S16x2048x1024 .f32 :=
  subf v (broadcastInDim S16x2048x1024 ![0, 1, 2] bcast_S16x2048x1_S16x2048x1024_0_1_2 (hostCol v))

theorem hostCentered_apply (v : FVec Ideal S16x2048x1024 .f32) (b : Fin 16) (s : Fin 2048) (k : Fin 1024) :
    hostCentered v (ix3 b s k) = v (ix3 b s k) - rowMean (fun k => v (ix3 b s k)) := by
  unfold hostCentered
  rw [subf_apply]
  exact congrArg (v (ix3 b s k) - ·) ((spread_apply _ b s k).trans (hostCol_apply v b s))

/-- The reciprocal square root of the row variance plus ε, as a column. -/
def hostInv (v : FVec Ideal S16x2048x1024 .f32) : FVec Ideal S16x2048x1 .f32 :=
  Host.rsqrt (addf (hostCol (mulf (hostCentered v) (hostCentered v)))
    (broadcastInDim S16x2048x1 ![] bcast_S_S16x2048x1 (constant S_ .f32 0x3727C5AC#32)))

theorem hostInv_apply (v : FVec Ideal S16x2048x1024 .f32) (b : Fin 16) (s : Fin 2048) :
    hostInv v (ix3 b s u) = Ideal.rsqrt (rowVar (fun k => v (ix3 b s k)) + Ideal.ofBits .f32 0x3727C5AC#32) := by
  unfold hostInv
  show Ideal.rsqrt (hostCol (mulf (hostCentered v) (hostCentered v)) (ix3 b s u)
      + broadcastInDim S16x2048x1 ![] bcast_S_S16x2048x1 (constant (F := Ideal) S_ .f32 0x3727C5AC#32) (ix3 b s u)) = _
  rw [splat_apply, hostCol_apply]
  unfold rowVar
  refine congrArg (fun z => Ideal.rsqrt (Ideal.div z (Ideal.ofBits .f32 0x44800000#32) + Ideal.ofBits .f32 0x3727C5AC#32)) ?_
  refine Finset.sum_congr rfl fun k _ => ?_
  rw [mulf_apply, hostCentered_apply]

/-- The normalised hidden states, scaled by g and shifted by b along the feature axis. -/
def hostNormed (v : FVec Ideal S16x2048x1024 .f32) (g b : FVec Ideal S1024 .f32) : FVec Ideal S16x2048x1024 .f32 :=
  addf (mulf (mulf (hostCentered v) (broadcastInDim S16x2048x1024 ![0, 1, 2] bcast_S16x2048x1_S16x2048x1024_0_1_2 (hostInv v)))
      (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

theorem hostNormed_apply (v : FVec Ideal S16x2048x1024 .f32) (g b : FVec Ideal S1024 .f32) (bb : Fin 16) (s : Fin 2048) (h : Fin 1024) :
    hostNormed v g b (ix3 bb s h) = lnEntry (fun k => v (ix3 bb s k)) (g (ix1 h)) (b (ix1 h)) h := by
  unfold hostNormed lnEntry
  rw [addf_apply, mulf_apply, mulf_apply, hostCentered_apply, column_apply, column_apply, spread_apply, hostInv_apply]

/-- The reference's mean: the normalised entries summed over the sequence axis, divided by the word for 2048. -/
def refMean (v : FVec Ideal S16x2048x1024 .f32) (g b : FVec Ideal S1024 .f32) : FVec Ideal S16x1024 .f32 :=
  Host.divf (Host.reduceAdd (hostNormed v g b) (constant S_ .f32 0x00000000#32) reducesTo_S16x2048x1024_S16x1024_d1 h_S_)
    (broadcastInDim S16x1024 ![] bcast_S_S16x1024 (constant S_ .f32 0x45000000#32))

/-- At (b, h) it is the specification's mean. -/
theorem refMean_apply (v : FVec Ideal S16x2048x1024 .f32) (g b : FVec Ideal S1024 .f32) (bb : Fin 16) (h : Fin 1024) :
    refMean v g b (ix2 bb h) = meanAt v g b bb h := by
  unfold refMean meanAt
  show Ideal.div _ _ = _
  refine congrArg₂ Ideal.div ((sumMiddle_apply _ bb h).trans ?_) (splat_apply _ _ _ _)
  exact Finset.sum_congr rfl fun s _ => hostNormed_apply v g b bb s h

set_option maxRecDepth 8192 in
set_option maxHeartbeats 40000000 in
/-- After the first 48 operations (the 34 of the mean, then the 14 that select a row of the layer embedding) that mean
    sits in its buffer. -/
theorem ln_part (W : Valuation τ sig (Elt Ideal)) :
    StableHlo.after ((HandRun.ops (F := Ideal)).take 48) W (Proc.devRef .tc main_v26)
      = refMean (W (Proc.devRef .tc main_arg0)) (W (Proc.devRef .tc main_arg5)) (W (Proc.devRef .tc main_arg6)) := by
  simp only [HandRun.ops, List.take_succ_cons, List.take_zero]
  after_results_simp
  rfl

end Cert.ReferenceIdeal.RefMean

end
-- ==== Proof.Tail.Lists.lean ====
/-
  The two programs' later host lines: names for the two operation lists.
-/
import proofs.«122109_j88742614270013_1_alg».proof.Proof.IdealFrame.Setting
import proofs.«122109_j88742614270013_1_alg».proof.Proof.RefRun
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen
/-- The kernel program's later lines, laid end to end. -/
abbrev tailFlat : List (HloOp τ sig (Elt Ideal)) := (Cert.KernelIdeal.Frame.tailOps (F := Ideal)).flatten
/-- The reference's operations. -/
abbrev refOps : List (HloOp Cert.ReferenceIdeal.τ Cert.ReferenceIdeal.sig (Elt Ideal)) := Cert.ReferenceIdeal.HandRun.ops (F := Ideal)

end Cert.Bridge

end
-- ==== Proof.Tail.HeadK.lean ====
/-
  The kernel program's first fourteen later lines select a row of the layer embedding by a dynamic slice whose two start
  indices are read through a family of references: read index by index.
-/
import proofs.«122109_j88742614270013_1_alg».proof.Proof.Tail.Lists
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen
set_option maxRecDepth 16384 in
set_option maxHeartbeats 100000000 in
/-- The kernel program's first fourteen later lines leave the row of the layer embedding the layer index selects (a
    negative index counted from the end), as a dynamic slice of the argument. -/
theorem head_v7 (W : Valuation τ sig (Elt Ideal)) :
    StableHlo.after (tailFlat.take 14) W (Proc.devRef .tc main_v7)
      = Host.dynamicSlice S1x1024 (W (Proc.devRef .tc main_arg1))
          (fun k => (((![select (cmpi .slt (W (Proc.devRef .tc main_arg12)) (constantI S_ 32 0#32)) (addi (W (Proc.devRef .tc main_arg12)) (constantI S_ 32 32#32)) (W (Proc.devRef .tc main_arg12)),
              select (cmpi .slt (constantI S_ 32 0#32) (constantI S_ 32 0#32)) (addi (constantI S_ 32 0#32) (constantI S_ 32 1024#32)) (constantI S_ 32 0#32)] : Fin 2 → (⟨S_, .i32⟩ : BufTy).Contents (Elt Ideal))) k (Shape.Idx.first h_S_)).toInt)
          sliceFits_S32x1024_S1x1024 := by
  simp only [tailFlat, Cert.KernelIdeal.Frame.tailOps, hostOps1, hostOps1_1, hostOps1_2, List.flatten_cons, List.flatten_nil,
    List.append_nil, List.cons_append, List.nil_append, List.take_succ_cons, List.take_zero]
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

/-- They write none of the buffers outside `written`. -/
theorem head_keeps (W : Valuation τ sig (Elt Ideal)) (r : Ref sig .tc) (hr : r ∉ Cert.KernelIdeal.Frame.written) :
    StableHlo.after (tailFlat.take 14) W (Proc.devRef .tc r) = W (Proc.devRef .tc r) :=
  StableHlo.after_of_forall_not_mem _ _ fun op hop hb => by
    have hsub := (List.forall_iff_forall_mem.mp (Cert.KernelIdeal.Frame.tail_writes (F := Ideal))) op (List.mem_of_mem_take hop)
    obtain ⟨y, hy, he⟩ := List.mem_map.mp (List.mem_toFinset.mp (hsub hb))
    exact hr (Proc.devRef_injective _ he ▸ hy)

end Cert.Bridge

end
-- ==== Proof.Tail.HeadR.lean ====
/-
  The reference's first 48 operations leave the same dynamic slice of its layer embedding.
-/
import proofs.«122109_j88742614270013_1_alg».proof.Proof.Tail.Lists
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen
set_option maxRecDepth 16384 in
set_option maxHeartbeats 100000000 in
/-- The reference's first 48 operations leave the same slice of its argument. -/
theorem headR_v33 (W : Valuation Cert.ReferenceIdeal.τ Cert.ReferenceIdeal.sig (Elt Ideal)) :
    StableHlo.after (refOps.take 48) W (Proc.devRef .tc Cert.ReferenceIdeal.main_v33)
      = Host.dynamicSlice Cert.ReferenceIdeal.S1x1024 (W (Proc.devRef .tc Cert.ReferenceIdeal.main_arg1))
          (fun k => (((![select (cmpi .slt (W (Proc.devRef .tc Cert.ReferenceIdeal.main_arg12)) (constantI Cert.ReferenceIdeal.S_ 32 0#32)) (addi (W (Proc.devRef .tc Cert.ReferenceIdeal.main_arg12)) (constantI Cert.ReferenceIdeal.S_ 32 32#32)) (W (Proc.devRef .tc Cert.ReferenceIdeal.main_arg12)),
              select (cmpi .slt (constantI Cert.ReferenceIdeal.S_ 32 0#32) (constantI Cert.ReferenceIdeal.S_ 32 0#32)) (addi (constantI Cert.ReferenceIdeal.S_ 32 0#32) (constantI Cert.ReferenceIdeal.S_ 32 1024#32)) (constantI Cert.ReferenceIdeal.S_ 32 0#32)] : Fin 2 → (⟨Cert.ReferenceIdeal.S_, .i32⟩ : BufTy).Contents (Elt Ideal))) k (Shape.Idx.first Cert.ReferenceIdeal.Gen.h_S_)).toInt)
          Cert.ReferenceIdeal.Gen.sliceFits_S32x1024_S1x1024 := by
  simp only [refOps, Cert.ReferenceIdeal.HandRun.ops, List.take_succ_cons, List.take_zero]
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

end Cert.Bridge

end
-- ==== Proof.Tail.Mid.lean ====
/-
  The two programs' later lines up to the scores: the affine maps, the scaled score matrix, the spatial and edge biases.
  Run from contents that agree on the selected row, the mean and the ten arguments, they leave the same scores.
-/
import proofs.«122109_j88742614270013_1_alg».proof.Proof.Tail.Lists
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen
/-- Two index columns side by side, as a function of the two (the kernel program's spelling), -/
def catK (a b : (⟨S32x1, .i32⟩ : BufTy).Contents (Elt Ideal)) : (⟨S32x2, .i32⟩ : BufTy).Contents (Elt Ideal) :=
  concatenate S32x2 1 [⟨S32x1, a⟩, ⟨S32x1, b⟩] concatenates_S32x1_S32x1_S32x2_d1
/-- which is what the kernel program's concatenate line computes of its two operands' contents; -/
theorem concat_resK (W : Valuation τ sig (Elt Ideal)) (ha hb hy) :
    (StableHlo.binary (τ := τ) main_v39 main_v40 main_v41
        ((fun a b => concatenate S32x2 1 [⟨S32x1, a⟩, ⟨S32x1, b⟩] concatenates_S32x1_S32x1_S32x2_d1) :
          (⟨S32x1, .i32⟩ : BufTy).Contents (Elt Ideal) → (⟨S32x1, .i32⟩ : BufTy).Contents (Elt Ideal) → (⟨S32x2, .i32⟩ : BufTy).Contents (Elt Ideal))
        ha hb hy).result W (no_index (Proc.devRef .tc main_v41))
      = catK (W (Proc.devRef .tc main_v39)) (W (Proc.devRef .tc main_v40)) :=
  binary_result' _ ha hb hy W
/-- the same for the reference. -/
def catR (a b : (⟨Cert.ReferenceIdeal.S32x1, .i32⟩ : BufTy).Contents (Elt Ideal)) : (⟨Cert.ReferenceIdeal.S32x2, .i32⟩ : BufTy).Contents (Elt Ideal) :=
  concatenate Cert.ReferenceIdeal.S32x2 1 [⟨Cert.ReferenceIdeal.S32x1, a⟩, ⟨Cert.ReferenceIdeal.S32x1, b⟩] Cert.ReferenceIdeal.Gen.concatenates_S32x1_S32x1_S32x2_d1
theorem concat_resR (W : Valuation Cert.ReferenceIdeal.τ Cert.ReferenceIdeal.sig (Elt Ideal)) (ha hb hy) :
    (StableHlo.binary (τ := Cert.ReferenceIdeal.τ) Cert.ReferenceIdeal.main_v65 Cert.ReferenceIdeal.main_v66 Cert.ReferenceIdeal.main_v67
        ((fun a b => concatenate Cert.ReferenceIdeal.S32x2 1 [⟨Cert.ReferenceIdeal.S32x1, a⟩, ⟨Cert.ReferenceIdeal.S32x1, b⟩] Cert.ReferenceIdeal.Gen.concatenates_S32x1_S32x1_S32x2_d1) :
          (⟨Cert.ReferenceIdeal.S32x1, .i32⟩ : BufTy).Contents (Elt Ideal) → (⟨Cert.ReferenceIdeal.S32x1, .i32⟩ : BufTy).Contents (Elt Ideal) → (⟨Cert.ReferenceIdeal.S32x2, .i32⟩ : BufTy).Contents (Elt Ideal))
        ha hb hy).result W (no_index (Proc.devRef .tc Cert.ReferenceIdeal.main_v67))
      = catR (W (Proc.devRef .tc Cert.ReferenceIdeal.main_v65)) (W (Proc.devRef .tc Cert.ReferenceIdeal.main_v66)) :=
  binary_result' _ ha hb hy W

set_option maxRecDepth 16384 in
set_option maxHeartbeats 800000000 in
/-- The kernel program's lines 15 to 82 and the reference's operations 49 to 117 leave the same scores. -/
theorem mid_agree (WK : Valuation τ sig (Elt Ideal)) (WR : Valuation Cert.ReferenceIdeal.τ Cert.ReferenceIdeal.sig (Elt Ideal))
    (hrow : WK (Proc.devRef .tc main_v7) = WR (Proc.devRef .tc Cert.ReferenceIdeal.main_v33))
    (hmean : WK (Proc.devRef .tc main_v0) = WR (Proc.devRef .tc Cert.ReferenceIdeal.main_v26))
    (h1 : WK (Proc.devRef .tc main_arg1) = WR (Proc.devRef .tc Cert.ReferenceIdeal.main_arg1))
    (h2 : WK (Proc.devRef .tc main_arg2) = WR (Proc.devRef .tc Cert.ReferenceIdeal.main_arg2))
    (h3 : WK (Proc.devRef .tc main_arg3) = WR (Proc.devRef .tc Cert.ReferenceIdeal.main_arg3))
    (h4 : WK (Proc.devRef .tc main_arg4) = WR (Proc.devRef .tc Cert.ReferenceIdeal.main_arg4))
    (h7 : WK (Proc.devRef .tc main_arg7) = WR (Proc.devRef .tc Cert.ReferenceIdeal.main_arg7))
    (h8 : WK (Proc.devRef .tc main_arg8) = WR (Proc.devRef .tc Cert.ReferenceIdeal.main_arg8))
    (h9 : WK (Proc.devRef .tc main_arg9) = WR (Proc.devRef .tc Cert.ReferenceIdeal.main_arg9))
    (h10 : WK (Proc.devRef .tc main_arg10) = WR (Proc.devRef .tc Cert.ReferenceIdeal.main_arg10))
    (h11 : WK (Proc.devRef .tc main_arg11) = WR (Proc.devRef .tc Cert.ReferenceIdeal.main_arg11))
    (h12 : WK (Proc.devRef .tc main_arg12) = WR (Proc.devRef .tc Cert.ReferenceIdeal.main_arg12)) :
    StableHlo.after ((tailFlat.drop 14).take 68) WK (Proc.devRef .tc main_v64)
      = StableHlo.after ((refOps.drop 48).take 69) WR (Proc.devRef .tc Cert.ReferenceIdeal.main_v91) := by
  simp only [tailFlat, Cert.KernelIdeal.Frame.tailOps, hostOps1, hostOps1_1, hostOps1_2, List.flatten_cons, List.flatten_nil,
    List.append_nil, List.cons_append, List.nil_append, refOps, Cert.ReferenceIdeal.HandRun.ops, List.drop_succ_cons, List.drop_zero, List.take_succ_cons, List.take_zero]
  simp (disch := decide) only [after_cons, after_nil, ↓concat_resK, ↓concat_resR, nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [hrow, hmean, h1, h2, h3, h4, h7, h8, h9, h10, h11, h12]
  rfl

end Cert.Bridge

end
-- ==== Proof.Tail.Soft.lean ====
/-
  The two programs' last fourteen lines: a softmax over the layers, from the scores.
-/
import proofs.«122109_j88742614270013_1_alg».proof.Proof.Tail.Lists
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen

set_option maxRecDepth 16384 in
set_option maxHeartbeats 400000000 in
/-- From the same scores the two programs' last fourteen lines leave the same result. -/
theorem soft_agree (WK : Valuation τ sig (Elt Ideal)) (WR : Valuation Cert.ReferenceIdeal.τ Cert.ReferenceIdeal.sig (Elt Ideal))
    (h : WK (Proc.devRef .tc main_v64) = WR (Proc.devRef .tc Cert.ReferenceIdeal.main_v91)) :
    StableHlo.after ((tailFlat.drop 14).drop 68) WK (Proc.devRef .tc main_v75)
      = StableHlo.after ((refOps.drop 48).drop 69) WR (Proc.devRef .tc Cert.ReferenceIdeal.main_v102) := by
  simp only [tailFlat, Cert.KernelIdeal.Frame.tailOps, hostOps1, hostOps1_1, hostOps1_2, List.flatten_cons, List.flatten_nil,
    List.append_nil, List.cons_append, List.nil_append, refOps, Cert.ReferenceIdeal.HandRun.ops, List.drop_succ_cons, List.drop_zero, List.take_succ_cons, List.take_zero]
  after_results_simp
  simp only [h]

end Cert.Bridge

end
-- ==== Proof.Tail.Rest.lean ====
/-
  The remaining lines of the two programs, from contents that agree on the selected row, the mean and the arguments: the
  scores first, then the softmax from the scores.
-/
import proofs.«122109_j88742614270013_1_alg».proof.Proof.Tail.Mid
import proofs.«122109_j88742614270013_1_alg».proof.Proof.Tail.Soft
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen

/-- The kernel program's remaining 82 lines and the reference's remaining 83 operations end at the same result. -/
theorem rests_agree (WK : Valuation τ sig (Elt Ideal)) (WR : Valuation Cert.ReferenceIdeal.τ Cert.ReferenceIdeal.sig (Elt Ideal))
    (hrow : WK (Proc.devRef .tc main_v7) = WR (Proc.devRef .tc Cert.ReferenceIdeal.main_v33))
    (hmean : WK (Proc.devRef .tc main_v0) = WR (Proc.devRef .tc Cert.ReferenceIdeal.main_v26))
    (h1 : WK (Proc.devRef .tc main_arg1) = WR (Proc.devRef .tc Cert.ReferenceIdeal.main_arg1))
    (h2 : WK (Proc.devRef .tc main_arg2) = WR (Proc.devRef .tc Cert.ReferenceIdeal.main_arg2))
    (h3 : WK (Proc.devRef .tc main_arg3) = WR (Proc.devRef .tc Cert.ReferenceIdeal.main_arg3))
    (h4 : WK (Proc.devRef .tc main_arg4) = WR (Proc.devRef .tc Cert.ReferenceIdeal.main_arg4))
    (h7 : WK (Proc.devRef .tc main_arg7) = WR (Proc.devRef .tc Cert.ReferenceIdeal.main_arg7))
    (h8 : WK (Proc.devRef .tc main_arg8) = WR (Proc.devRef .tc Cert.ReferenceIdeal.main_arg8))
    (h9 : WK (Proc.devRef .tc main_arg9) = WR (Proc.devRef .tc Cert.ReferenceIdeal.main_arg9))
    (h10 : WK (Proc.devRef .tc main_arg10) = WR (Proc.devRef .tc Cert.ReferenceIdeal.main_arg10))
    (h11 : WK (Proc.devRef .tc main_arg11) = WR (Proc.devRef .tc Cert.ReferenceIdeal.main_arg11))
    (h12 : WK (Proc.devRef .tc main_arg12) = WR (Proc.devRef .tc Cert.ReferenceIdeal.main_arg12)) :
    StableHlo.after (tailFlat.drop 14) WK (Proc.devRef .tc main_v75)
      = StableHlo.after (refOps.drop 48) WR (Proc.devRef .tc Cert.ReferenceIdeal.main_v102) := by
  have hK : tailFlat.drop 14 = (tailFlat.drop 14).take 68 ++ (tailFlat.drop 14).drop 68 := (List.take_append_drop 68 _).symm
  have hR : refOps.drop 48 = (refOps.drop 48).take 69 ++ (refOps.drop 48).drop 69 := (List.take_append_drop 69 _).symm
  rw [hK, StableHlo.after_append, hR, StableHlo.after_append]
  exact soft_agree _ _ (mid_agree WK WR hrow hmean h1 h2 h3 h4 h7 h8 h9 h10 h11 h12)

end Cert.Bridge

end
-- ==== Proof.Tail.Bridge.lean ====
/-
  The later host lines of the two programs agree.

  After the mean of the normalised hidden states both programs apply the same operations: add the selected row of the layer
  embedding, two affine maps, the scaled score matrix, the spatial and edge biases, and a softmax over the layers — in the
  kernel's program the 96 lines after the region, in the reference the 97 lines after its mean (the same, with one iota
  computed twice). Each side first selects the row by a dynamic slice whose two start indices are read through a family of
  references: that slice is read index by index on each side. The remaining lines of both programs, run from contents
  that agree on the selected row, the mean and the arguments, are then compared as one equation between the two folds: both
  are computed line by line (the concatenated index pair read as one function of its two columns), and the results are
  the same term.
-/
import proofs.«122109_j88742614270013_1_alg».proof.Proof.Tail.HeadK
import proofs.«122109_j88742614270013_1_alg».proof.Proof.Tail.HeadR
import proofs.«122109_j88742614270013_1_alg».proof.Proof.Tail.Rest
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert.KernelIdeal Cert.KernelIdeal.Gen
/-- The kernel program's 96 later lines, from contents holding the reference's mean of the reference's arguments and the ten
    arguments the lines read, leave the reference's result. -/
theorem tail_bridge (WK : Valuation τ sig (Elt Ideal))
    (m' : (ℓ : Loc Cert.ReferenceIdeal.nD Cert.ReferenceIdeal.τ Cert.ReferenceIdeal.sig) → Buf (Elt Ideal) ℓ) (c : Dev Cert.ReferenceIdeal.nD)
    (hv : WK (Proc.devRef .tc main_v0) = StableHlo.after (refOps.take 48) (fun b => m' (c, b)) (Proc.devRef .tc Cert.ReferenceIdeal.main_v26))
    (h1 : WK (Proc.devRef .tc main_arg1) = m' ((c.tc : Thread Cert.ReferenceIdeal.nD Cert.ReferenceIdeal.τ).loc Cert.ReferenceIdeal.main_arg1))
    (h2 : WK (Proc.devRef .tc main_arg2) = m' ((c.tc : Thread Cert.ReferenceIdeal.nD Cert.ReferenceIdeal.τ).loc Cert.ReferenceIdeal.main_arg2))
    (h3 : WK (Proc.devRef .tc main_arg3) = m' ((c.tc : Thread Cert.ReferenceIdeal.nD Cert.ReferenceIdeal.τ).loc Cert.ReferenceIdeal.main_arg3))
    (h4 : WK (Proc.devRef .tc main_arg4) = m' ((c.tc : Thread Cert.ReferenceIdeal.nD Cert.ReferenceIdeal.τ).loc Cert.ReferenceIdeal.main_arg4))
    (h7 : WK (Proc.devRef .tc main_arg7) = m' ((c.tc : Thread Cert.ReferenceIdeal.nD Cert.ReferenceIdeal.τ).loc Cert.ReferenceIdeal.main_arg7))
    (h8 : WK (Proc.devRef .tc main_arg8) = m' ((c.tc : Thread Cert.ReferenceIdeal.nD Cert.ReferenceIdeal.τ).loc Cert.ReferenceIdeal.main_arg8))
    (h9 : WK (Proc.devRef .tc main_arg9) = m' ((c.tc : Thread Cert.ReferenceIdeal.nD Cert.ReferenceIdeal.τ).loc Cert.ReferenceIdeal.main_arg9))
    (h10 : WK (Proc.devRef .tc main_arg10) = m' ((c.tc : Thread Cert.ReferenceIdeal.nD Cert.ReferenceIdeal.τ).loc Cert.ReferenceIdeal.main_arg10))
    (h11 : WK (Proc.devRef .tc main_arg11) = m' ((c.tc : Thread Cert.ReferenceIdeal.nD Cert.ReferenceIdeal.τ).loc Cert.ReferenceIdeal.main_arg11))
    (h12 : WK (Proc.devRef .tc main_arg12) = m' ((c.tc : Thread Cert.ReferenceIdeal.nD Cert.ReferenceIdeal.τ).loc Cert.ReferenceIdeal.main_arg12)) :
    StableHlo.after tailFlat WK (Proc.devRef .tc main_v75) = Cert.ReferenceIdeal.HandRun.res m' c := by
  unfold Cert.ReferenceIdeal.HandRun.res
  have hK : tailFlat = tailFlat.take 14 ++ tailFlat.drop 14 := (List.take_append_drop 14 _).symm
  have hR : refOps = refOps.take 48 ++ refOps.drop 48 := (List.take_append_drop 48 _).symm
  show StableHlo.after tailFlat WK (Proc.devRef .tc main_v75) = StableHlo.after refOps (fun b => m' (c, b)) (Proc.devRef .tc Cert.ReferenceIdeal.main_v102)
  rw [hK, StableHlo.after_append, hR, StableHlo.after_append]
  refine rests_agree _ _ ?_ ?_ ?_ ?_ ?_ ?_ ?_ ?_ ?_ ?_ ?_ ?_
  · rw [head_v7 WK, headR_v33, h1, h12]
    rfl
  · rw [head_keeps WK main_v0 (by decide), hv]
  · rw [head_keeps WK main_arg1 (by decide), Cert.ReferenceIdeal.HandRun.kept_take _ Cert.ReferenceIdeal.main_arg1 (by decide) 48, h1]
  · rw [head_keeps WK main_arg2 (by decide), Cert.ReferenceIdeal.HandRun.kept_take _ Cert.ReferenceIdeal.main_arg2 (by decide) 48, h2]
  · rw [head_keeps WK main_arg3 (by decide), Cert.ReferenceIdeal.HandRun.kept_take _ Cert.ReferenceIdeal.main_arg3 (by decide) 48, h3]
  · rw [head_keeps WK main_arg4 (by decide), Cert.ReferenceIdeal.HandRun.kept_take _ Cert.ReferenceIdeal.main_arg4 (by decide) 48, h4]
  · rw [head_keeps WK main_arg7 (by decide), Cert.ReferenceIdeal.HandRun.kept_take _ Cert.ReferenceIdeal.main_arg7 (by decide) 48, h7]
  · rw [head_keeps WK main_arg8 (by decide), Cert.ReferenceIdeal.HandRun.kept_take _ Cert.ReferenceIdeal.main_arg8 (by decide) 48, h8]
  · rw [head_keeps WK main_arg9 (by decide), Cert.ReferenceIdeal.HandRun.kept_take _ Cert.ReferenceIdeal.main_arg9 (by decide) 48, h9]
  · rw [head_keeps WK main_arg10 (by decide), Cert.ReferenceIdeal.HandRun.kept_take _ Cert.ReferenceIdeal.main_arg10 (by decide) 48, h10]
  · rw [head_keeps WK main_arg11 (by decide), Cert.ReferenceIdeal.HandRun.kept_take _ Cert.ReferenceIdeal.main_arg11 (by decide) 48, h11]
  · rw [head_keeps WK main_arg12 (by decide), Cert.ReferenceIdeal.HandRun.kept_take _ Cert.ReferenceIdeal.main_arg12 (by decide) 48, h12]

end Cert.Bridge

end
-- ==== Proof.lean ====
/-
  A layer norm over the feature axis followed by a mean over the sequence axis, computed tile by tile by a Pallas
  kernel into an accumulator, against the same computed by jnp; both followed by the same routing scores and softmax.

  The claim's five parts.
  The three frames: the kernel's program, as printed and as idealized, is ONE region over a grid of 2 × 16 points followed
  by 96 host lines; its run is built from the body's run in its three cases (accumulator reset at the first sequence tile
  of a batch block, kept at a middle one, written out at the last), the accumulator carried between points as the region's
  invariant, and the later lines run from the region's exit writing fresh buffers only: every argument ends as it
  began. The reference is host lines only; its frame is its run with the result dropped.
  `preserves`: the ideal pass rewrote nothing.
  `algebraic`: over the extended reals the kernel's accumulator holds, after the sixteen tiles of a batch block, the sum over
  all 2048 positions of the normalised entries — a sum regrouped, which needs only that addition is commutative and
  associative, so no finiteness of the inputs —, and its product with the exact word for 1/2048 is the reference's quotient by
  2048. The remaining lines are the same operations on both sides.
-/
import proofs.«122109_j88742614270013_1_alg».proof.Defs
import proofs.«122109_j88742614270013_1_alg».proof.Proof.Gen.Kernel
import proofs.«122109_j88742614270013_1_alg».proof.Proof.Gen.KernelIdeal
import proofs.«122109_j88742614270013_1_alg».proof.Proof.Gen.ReferenceIdeal
import proofs.«122109_j88742614270013_1_alg».proof.Proof.Gen.Pre_finite_inputs
import proofs.«122109_j88742614270013_1_alg».proof.Proof.BitsFrame.Run
import proofs.«122109_j88742614270013_1_alg».proof.Proof.IdealFrame.Run
import proofs.«122109_j88742614270013_1_alg».proof.Proof.Mean.Sum
import proofs.«122109_j88742614270013_1_alg».proof.Proof.RefRun
import proofs.«122109_j88742614270013_1_alg».proof.Proof.RefMean
import proofs.«122109_j88742614270013_1_alg».proof.Proof.Tail.Bridge
import Idealize.ShloMosaic.Lib.Pipeline.FrameSuffix
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel (hKernel := Cert.Kernel.Gen.facts) (hPre_finite_inputs := Cert.Pre_finite_inputs.Gen.facts) :=
  fun m ρ _ => Cert.Kernel.Frame.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- The mean the kernel's region leaves is the reference's mean of the same arrays. -/
theorem mean_agree (X : (⟨3, ![16, 2048, 1024]⟩ : Shape).Idx → EReal) (G B : (⟨1, ![1024]⟩ : Shape).Idx → EReal) :
    Cert.KernelIdeal.Mean.meanArr X G B = Cert.ReferenceIdeal.RefMean.refMean X G B := by
  funext i
  rw [eq_ix2 i]
  exact (Cert.ReferenceIdeal.RefMean.refMean_apply X G B (i 0) (i 1)).symm

open Cert.KernelIdeal Cert.KernelIdeal.Gen Cert.KernelIdeal.Frame in
/-- The idealized kernel's run, read: its result is the reference's result of arguments that agree. -/
theorem kernel_value (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)) :
    θ_run (defs (F := Ideal)) (onTc (τ := τ) (main (F := Ideal))) ⟨m, fun _ => 0, ρ⟩ (fun r => ∀ c : Dev nD,
      r.2.mem ((c.tc : Thread nD τ).loc main_v75) = Cert.ReferenceIdeal.HandRun.res m' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨?_, post_args m (dats m) (A_eq m) r h c⟩) (run_main (F := Ideal) m ρ)
  refine ((h c).2 main_v75 (by decide)).trans ?_
  unfold Pipeline.afterTail₀
  refine Cert.Bridge.tail_bridge _ m' c ?_ ?_ ?_ ?_ ?_ ?_ ?_ ?_ ?_ ?_ ?_
  · refine (Pipeline.withArrays_arr spec0 launch0.win.arr_inj c _ _ 3).trans ((Cert.KernelIdeal.Mean.final3 m c).trans ?_)
    rw [Cert.ReferenceIdeal.RefMean.ln_part]
    show Cert.KernelIdeal.Mean.meanArr (V m c main_arg0) (V m c main_arg5) (V m c main_arg6)
      = Cert.ReferenceIdeal.RefMean.refMean (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
    rw [(hagree c).1, (hagree c).2.2.2.2.2.1, (hagree c).2.2.2.2.2.2.1]
    exact mean_agree _ _ _
  · exact (Pipeline.withArrays_of_ne spec0 c _ _ main_arg1 (fun w => by fin_cases w <;> decide)).trans ((hagree c).2.1).symm
  · exact (Pipeline.withArrays_of_ne spec0 c _ _ main_arg2 (fun w => by fin_cases w <;> decide)).trans ((hagree c).2.2.1).symm
  · exact (Pipeline.withArrays_of_ne spec0 c _ _ main_arg3 (fun w => by fin_cases w <;> decide)).trans ((hagree c).2.2.2.1).symm
  · exact (Pipeline.withArrays_of_ne spec0 c _ _ main_arg4 (fun w => by fin_cases w <;> decide)).trans ((hagree c).2.2.2.2.1).symm
  · exact (Pipeline.withArrays_of_ne spec0 c _ _ main_arg7 (fun w => by fin_cases w <;> decide)).trans ((hagree c).2.2.2.2.2.2.2.1).symm
  · exact (Pipeline.withArrays_of_ne spec0 c _ _ main_arg8 (fun w => by fin_cases w <;> decide)).trans ((hagree c).2.2.2.2.2.2.2.2.1).symm
  · exact (Pipeline.withArrays_of_ne spec0 c _ _ main_arg9 (fun w => by fin_cases w <;> decide)).trans ((hagree c).2.2.2.2.2.2.2.2.2.1).symm
  · exact (Pipeline.withArrays_of_ne spec0 c _ _ main_arg10 (fun w => by fin_cases w <;> decide)).trans ((hagree c).2.2.2.2.2.2.2.2.2.2.1).symm
  · exact (Pipeline.withArrays_of_ne spec0 c _ _ main_arg11 (fun w => by fin_cases w <;> decide)).trans ((hagree c).2.2.2.2.2.2.2.2.2.2.2.1).symm
  · exact (Pipeline.withArrays_of_ne spec0 c _ _ main_arg12 (fun w => by fin_cases w <;> decide)).trans ((hagree c).2.2.2.2.2.2.2.2.2.2.2.2).symm

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => Cert.ReferenceIdeal.HandRun.res m' c, kernel_value m ρ m' hagree, Cert.ReferenceIdeal.HandRun.run (F := Ideal) m' ρ'⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
